-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S1600000x32 : Shape := ⟨2, ![1600000, 32]⟩
abbrev S64x256 : Shape := ⟨2, ![64, 256]⟩
abbrev S64 : Shape := ⟨1, ![64]⟩
abbrev S64x32 : Shape := ⟨2, ![64, 32]⟩
abbrev S64x128 : Shape := ⟨2, ![64, 128]⟩
abbrev S256x64 : Shape := ⟨2, ![256, 64]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S64x128 : S_.BroadcastsInDim S64x128 (![] : Fin 0 → Fin S64x128.rank)
  reducesTo_S64x128_S_d0_1 : S64x128.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S64 .f32) (main_arg9 : FVec F S256x64 .f32) (main_arg10 : FVec F S256 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S256x64 .f32 := Host.absf main_arg9
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg5 : FVec F S64x32 .f32) (main_arg6 : FVec F S64 .f32) (main_arg7 : FVec F S64x128 .f32) (main_arg8 : FVec F S64 .f32) (main_arg9 : FVec F S256x64 .f32) (main_arg10 : FVec F S256 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x256 .f32) (main_arg1 : IVec S2x1600000 32) (main_arg2 : FVec F S1600000x32 .f32) (main_arg3 : FVec F S64x256 .f32) (main_arg4 : FVec F S64 .f32) (main_arg5 : FVec F S64x32 .f32) (main_arg6 : FVec F S64 .f32) (main_arg7 : FVec F S64x128 .f32) (main_arg8 : FVec F S64 .f32) (main_arg9 : FVec F S256x64 .f32) (main_arg10 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x256 : Shape := ⟨2, ![50000, 256]⟩
abbrev S2x1600000 : Shape := ⟨2, ![2, 1600000]⟩
abbrev S1600000x32 : Shape := ⟨2, ![1600000, 32]⟩
abbrev S64x256 : Shape := ⟨2, ![64, 256]⟩
abbrev S64 : Shape := ⟨1, ![64]⟩
abbrev S64x32 : Shape := ⟨2, ![64, 32]⟩
abbrev S64x128 : Shape := ⟨2, ![64, 128]⟩
abbrev S256x64 : Shape := ⟨2, ![256, 64]⟩
abbrev S256 : Shape := ⟨1, ![256]⟩
abbrev S1x64 : Shape := ⟨2, ![1, 64]⟩
abbrev S1600000x65 : Shape := ⟨2, ![1600000, 65]⟩
abbrev S10000x32 : Shape := ⟨2, ![10000, 32]⟩
abbrev S10000x65 : Shape := ⟨2, ![10000, 65]⟩
abbrev S32x64 : Shape := ⟨2, ![32, 64]⟩
abbrev S10000x64 : Shape := ⟨2, ![10000, 64]⟩
abbrev S10000x1 : Shape := ⟨2, ![10000, 1]⟩
abbrev S1x1600000 : Shape := ⟨2, ![1, 1600000]⟩
abbrev S1600000 : Shape := ⟨1, ![1600000]⟩
abbrev S_ : Shape := ⟨0, ![]⟩
abbrev S50000x65 : Shape := ⟨2, ![50000, 65]⟩
abbrev S1600000x1 : Shape := ⟨2, ![1600000, 1]⟩
abbrev S50000x64 : Shape := ⟨2, ![50000, 64]⟩
abbrev S50000x1 : Shape := ⟨2, ![50000, 1]⟩
abbrev S50000 : Shape := ⟨1, ![50000]⟩
abbrev S1x256 : Shape := ⟨2, ![1, 256]⟩
abbrev S2000x256 : Shape := ⟨2, ![2000, 256]⟩
abbrev S2000x64 : Shape := ⟨2, ![2000, 64]⟩
abbrev S2000x128 : Shape := ⟨2, ![2000, 128]⟩
abbrev S128x64 : Shape := ⟨2, ![128, 64]⟩

abbrev nBuf : Space → Nat
  | .hbm => 33
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S1600000x32, .f32⟩
  | .hbm, ⟨3, _⟩ => ⟨S64x256, .f32⟩
  | .hbm, ⟨4, _⟩ => ⟨S64, .f32⟩
  | .hbm, ⟨5, _⟩ => ⟨S64x32, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S256x64, .f32⟩
  | .hbm, ⟨10, _⟩ => ⟨S256, .f32⟩
  | .hbm, ⟨11, _⟩ => ⟨S1x64, .f32⟩
  | .hbm, ⟨12, _⟩ => ⟨S1600000x65, .bf16⟩
  | .hbm, ⟨13, _⟩ => ⟨S1x1600000, .i32⟩
  | .hbm, ⟨14, _⟩ => ⟨S1600000, .i32⟩
  | .hbm, ⟨15, _⟩ => ⟨S1600000x65, .f32⟩
  | .hbm, ⟨16, _⟩ => ⟨S_, .f32⟩
  | .hbm, ⟨17, _⟩ => ⟨S50000x65, .f32⟩
  | .hbm, ⟨18, _⟩ => ⟨S1600000x1, .i32⟩
  | .hbm, ⟨19, _⟩ => ⟨S50000x65, .f32⟩
  | .hbm, ⟨20, _⟩ => ⟨S50000x64, .f32⟩
  | .hbm, ⟨21, _⟩ => ⟨S50000x1, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x64, .f32⟩
  | .hbm, ⟨28, _⟩ => ⟨S50000x64, .f32⟩
  | .hbm, ⟨29, _⟩ => ⟨S1x64, .f32⟩
  | .hbm, ⟨30, _⟩ => ⟨S1x64, .f32⟩
  | .hbm, ⟨31, _⟩ => ⟨S1x256, .f32⟩
  | .hbm, ⟨32, _⟩ => ⟨S50000x256, .f32⟩
  | .local _ .vmem, ⟨0, _⟩ => ⟨S10000x32, .f32⟩
  | .local _ .vmem, ⟨1, _⟩ => ⟨S10000x32, .f32⟩
  | .local _ .vmem, ⟨2, _⟩ => ⟨S64x32, .f32⟩
  | .local _ .vmem, ⟨3, _⟩ => ⟨S1x64, .f32⟩
  | .local _ .vmem, ⟨4, _⟩ => ⟨S10000x65, .bf16⟩
  | .local _ .vmem, ⟨5, _⟩ => ⟨S10000x65, .bf16⟩
  | .local _ .vmem, ⟨6, _⟩ => ⟨S2000x256, .f32⟩
  | .local _ .vmem, ⟨7, _⟩ => ⟨S2000x256, .f32⟩
  | .local _ .vmem, ⟨8, _⟩ => ⟨S2000x64, .f32⟩
  | .local _ .vmem, ⟨9, _⟩ => ⟨S2000x64, .f32⟩
  | .local _ .vmem, ⟨10, _⟩ => ⟨S64x256, .f32⟩
  | .local _ .vmem, ⟨11, _⟩ => ⟨S1x64, .f32⟩
  | .local _ .vmem, ⟨12, _⟩ => ⟨S64x128, .f32⟩
  | .local _ .vmem, ⟨13, _⟩ => ⟨S1x64, .f32⟩
  | .local _ .vmem, ⟨14, _⟩ => ⟨S256x64, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x65 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  transposes_S64x32_p1_0_S32x64 : S64x32.Transposes [1, 0] S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  concatenates_S10000x64_S10000x1_S10000x65_d1 : Shape.Concatenates [S10000x64, S10000x1] S10000x65 1
  inb_S10000x65_S10000x65_0_0 : ∀ a, (![0, 0] : Fin 2 → Nat) a + S10000x65.size a ≤ S10000x65.size a
  h_S10000x65 : 0 < S10000x65.numel
  packedbf16_S10000x65_S10000x65_0_0 : (Rect.unit (s := S10000x65) ![0, 0] S10000x65.size inb_S10000x65_S10000x65_0_0).PackedRows (EltTy.packing .bf16)
  slices_S2x1600000_S1x1600000_0_0 : S2x1600000.Slices ![0, 0] S1x1600000
  shapeCasts_S1x1600000_S1600000 : S1x1600000.ShapeCasts S1600000
  bcast_S_S50000x65 : S_.BroadcastsInDim S50000x65 (![] : Fin 0 → Fin S50000x65.rank)
  bcast_S1600000_S1600000x1_0 : S1600000.BroadcastsInDim S1600000x1 (![0] : Fin 1 → Fin S1600000x1.rank)
  slices_S50000x65_S50000x64_0_0 : S50000x65.Slices ![0, 0] S50000x64
  slices_S50000x65_S50000x1_0_64 : S50000x65.Slices ![0, 64] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x256_S64x256_0_0 : ∀ a, (![0, 0] : Fin 2 → Nat) a + S64x256.size a ≤ S64x256.size a
  h_S64x256 : 0 < S64x256.numel
  transposes_S64x256_p1_0_S256x64 : S64x256.Transposes [1, 0] S256x64
  broadcasts_S1x64_S2000x64 : S1x64.Broadcasts S2000x64
  concatenates_S2000x64_S2000x64_S2000x128_d1 : Shape.Concatenates [S2000x64, S2000x64] S2000x128 1
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S256x64_S256x64_0_0 : ∀ a, (![0, 0] : Fin 2 → Nat) a + S256x64.size a ≤ S256x64.size a
  h_S256x64 : 0 < S256x64.numel
  transposes_S256x64_p1_0_S64x256 : S256x64.Transposes [1, 0] S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  dot_S10000x32_S32x64_S10000x64_1_0_0_1_n_n_wf : DotDims.WF S10000x32 S32x64 S10000x64 [1] [0] [0] [1] [] []
  scatter_S50000x65_S1600000x1_S1600000x65_1_0_0_1_wf : ScatterDims.WF S50000x65 S1600000x1 S1600000x65 [1] [0] [0] 1
  dot_S2000x256_S256x64_S2000x64_1_0_0_1_n_n_wf : DotDims.WF S2000x256 S256x64 S2000x64 [1] [0] [0] [1] [] []
  dot_S2000x128_S128x64_S2000x64_1_0_0_1_n_n_wf : DotDims.WF S2000x128 S128x64 S2000x64 [1] [0] [0] [1] [] []
  dot_S2000x64_S64x256_S2000x256_1_0_0_1_n_n_wf : DotDims.WF S2000x64 S64x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S1600000x32.size a
  hwx0_0 : ∀ i : grid0.Coords, EltTy.bits .f32 = 32 ∨ (Rect.block (s := S1600000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x65.size a ≤ S1600000x65.size a
  hwx0_3 : ∀ i : grid0.Coords, EltTy.bits .bf16 = 32 ∨ (Rect.block (s := S1600000x65) S10000x65.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x256.size a ≤ S64x256.size a
  hwx1_2 : ∀ i : grid1.Coords, EltTy.bits .f32 = 32 ∨ (Rect.block (s := S64x256) S64x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x64.size a ≤ S256x64.size a
  hwx1_6 : ∀ i : grid1.Coords, EltTy.bits .f32 = 32 ∨ (Rect.block (s := S256x64) S256x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S50000x256.size a
  hwx1_8 : ∀ i : grid1.Coords, EltTy.bits .f32 = 32 ∨ (Rect.block (s := S50000x256) S2000x256.size (cc1_transform_8 i) (hinb1_8 i)).WholeWords (EltTy.packing .f32)

variable [Facts₀]

def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def scatter_S50000x65_S1600000x1_S1600000x65_1_0_0_1 : ScatterDims S50000x65 S1600000x1 S1600000x65 where
  updateWindowDims := [1]
  insertedWindowDims := [0]
  scatterDimsToOperandDims := [0]
  indexVectorDim := 1
  wf := scatter_S50000x65_S1600000x1_S1600000x65_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf

abbrev win0_0 : Pipeline.Window sig grid0 :=
  Pipeline.Window.ofSpec (Memref.whole main_arg2) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x65.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S256x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S1600000x32 : Shape := ⟨2, ![1600000, 32]⟩
abbrev S64x256 : Shape := ⟨2, ![64, 256]⟩
abbrev S64 : Shape := ⟨1, ![64]⟩
abbrev S64x32 : Shape := ⟨2, ![64, 32]⟩
abbrev S64x128 : Shape := ⟨2, ![64, 128]⟩
abbrev S256x64 : Shape := ⟨2, ![256, 64]⟩
abbrev S256 : Shape := ⟨1, ![256]⟩
abbrev S50000x64 : Shape := ⟨2, ![50000, 64]⟩
abbrev S1x64 : Shape := ⟨2, ![1, 64]⟩
abbrev S_ : Shape := ⟨0, ![]⟩
abbrev S32x64 : Shape := ⟨2, ![32, 64]⟩
abbrev S1600000x64 : Shape := ⟨2, ![1600000, 64]⟩
abbrev S1x1600000 : Shape := ⟨2, ![1, 1600000]⟩
abbrev S1600000 : Shape := ⟨1, ![1600000]⟩
abbrev S1600000x1 : Shape := ⟨2, ![1600000, 1]⟩
abbrev S50000 : Shape := ⟨1, ![50000]⟩
abbrev S50000x1 : Shape := ⟨2, ![50000, 1]⟩
abbrev S50000x128 : Shape := ⟨2, ![50000, 128]⟩
abbrev S128x64 : Shape := ⟨2, ![128, 64]⟩
abbrev S1x256 : Shape := ⟨2, ![1, 256]⟩

abbrev nBuf : Space → Nat
  | .hbm => 60
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S1600000x32, .f32⟩
  | .hbm, ⟨3, _⟩ => ⟨S64x256, .f32⟩
  | .hbm, ⟨4, _⟩ => ⟨S64, .f32⟩
  | .hbm, ⟨5, _⟩ => ⟨S64x32, .f32⟩
  | .hbm, ⟨6, _⟩ => ⟨S64, .f32⟩
  | .hbm, ⟨7, _⟩ => ⟨S64x128, .f32⟩
  | .hbm, ⟨8, _⟩ => ⟨S64, .f32⟩
  | .hbm, ⟨9, _⟩ => ⟨S256x64, .f32⟩
  | .hbm, ⟨10, _⟩ => ⟨S256, .f32⟩
  | .hbm, ⟨11, _⟩ => ⟨S256x64, .f32⟩
  | .hbm, ⟨12, _⟩ => ⟨S50000x64, .f32⟩
  | .hbm, ⟨13, _⟩ => ⟨S1x64, .f32⟩
  | .hbm, ⟨14, _⟩ => ⟨S50000x64, .f32⟩
  | .hbm, ⟨15, _⟩ => ⟨S50000x64, .f32⟩
  | .hbm, ⟨16, _⟩ => ⟨S_, .f32⟩
  | .hbm, ⟨17, _⟩ => ⟨S50000x64, .f32⟩
  | .hbm, ⟨18, _⟩ => ⟨S50000x64, .f32⟩
  | .hbm, ⟨19, _⟩ => ⟨S32x64, .f32⟩
  | .hbm, ⟨20, _⟩ => ⟨S1600000x64, .f32⟩
  | .hbm, ⟨21, _⟩ => ⟨S1x64, .f32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S1600000x64, .f32⟩
  | .hbm, ⟨26, _⟩ => ⟨S1600000x64, .f32⟩
  | .hbm, ⟨27, _⟩ => ⟨S1x1600000, .i32⟩
  | .hbm, ⟨28, _⟩ => ⟨S1600000, .i32⟩
  | .hbm, ⟨29, _⟩ => ⟨S_, .f32⟩
  | .hbm, ⟨30, _⟩ => ⟨S50000x64, .f32⟩
  | .hbm, ⟨31, _⟩ => ⟨S1600000x1, .i32⟩
  | .hbm, ⟨32, _⟩ => ⟨S50000x64, .f32⟩
  | .hbm, ⟨33, _⟩ => ⟨S_, .f32⟩
  | .hbm, ⟨34, _⟩ => ⟨S1600000, .f32⟩
  | .hbm, ⟨35, _⟩ => ⟨S_, .f32⟩
  | .hbm, ⟨36, _⟩ => ⟨S50000, .f32⟩
  | .hbm, ⟨37, _⟩ => ⟨S1600000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x64, .f32⟩
  | .hbm, ⟨44, _⟩ => ⟨S50000x64, .f32⟩
  | .hbm, ⟨45, _⟩ => ⟨S50000x128, .f32⟩
  | .hbm, ⟨46, _⟩ => ⟨S128x64, .f32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S50000x64, .f32⟩
  | .hbm, ⟨51, _⟩ => ⟨S_, .f32⟩
  | .hbm, ⟨52, _⟩ => ⟨S50000x64, .f32⟩
  | .hbm, ⟨53, _⟩ => ⟨S50000x64, .f32⟩
  | .hbm, ⟨54, _⟩ => ⟨S64x256, .f32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call1_cst : Ref sig .tc := ⟨.hbm, 24, rfl⟩
abbrev main_call1_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call2_cst : Ref sig .tc := ⟨.hbm, 51, rfl⟩
abbrev main_call2_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  transposes_S64x256_S256x64_1_0 : S64x256.Transposes [1, 0] S256x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  transposes_S64x32_S32x64_1_0 : S64x32.Transposes [1, 0] S32x64
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  slices_S2x1600000_S1x1600000_0_0 : S2x1600000.Slices ![0, 0] S1x1600000
  shapeCasts_S1x1600000_S1600000 : S1x1600000.ShapeCasts S1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  transposes_S64x128_S128x64_1_0 : S64x128.Transposes [1, 0] S128x64
  transposes_S256x64_S64x256_1_0 : S256x64.Transposes [1, 0] S64x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x256_S256x64_S50000x64_1_0_0_1_n_n_wf : DotDims.WF S50000x256 S256x64 S50000x64 [1] [0] [0] [1] [] []
  dot_S1600000x32_S32x64_S1600000x64_1_0_0_1_n_n_wf : DotDims.WF S1600000x32 S32x64 S1600000x64 [1] [0] [0] [1] [] []
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  dot_S50000x128_S128x64_S50000x64_1_0_0_1_n_n_wf : DotDims.WF S50000x128 S128x64 S50000x64 [1] [0] [0] [1] [] []
  dot_S50000x64_S64x256_S50000x256_1_0_0_1_n_n_wf : DotDims.WF S50000x64 S64x256 S50000x256 [1] [0] [0] [1] [] []

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def dot_S1600000x32_S32x64_S1600000x64_1_0_0_1_n_n : DotDims S1600000x32 S32x64 S1600000x64 where
  lhsContracting := [1]
  rhsContracting := [0]
  lhsNonContracting := [0]
  rhsNonContracting := [1]
  lhsBatch := []
  rhsBatch := []
  wf := dot_S1600000x32_S32x64_S1600000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf

class Facts : Prop extends Facts₀ where

variable [Facts]
-- ==== Proof.RunNamed.lean ====
/-
  The idealized kernel's run with its result named.

  The program is two grids of blocks with host operations before and between them. Running it from a launch memory `m`
  leaves every buffer that outlives a grid at the contents the fold through the program gives it: the host operations
  applied in order, and each grid's arrays at what its write-backs leave. Here that run is stated with every such buffer
  kept in the final state, and then read at the result buffer — the second grid's output array after its last
  write-back — and at the eleven arguments, which nothing writes.
-/
import proofs.«165461_j30674656428557_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from `m` terminates, and in every final state each buffer that outlives the grids holds
    what the fold through the program leaves there. -/
theorem run_kept : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The run read at the result and at the arguments: the result buffer ends holding the second grid's output array
    after its last write-back, taken from the contents the second grid is entered with; each argument ends as launched. -/
theorem run_named : θ_run defs (onTc (τ := τ) (main (F := F))) ⟨m, fun _ => 0, ρ⟩ (fun r => ∀ c : Dev nD,
      r.2.mem ((c.tc : Thread nD τ).loc main_v19) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨(h c _ (mem_uc main_v19 (by decide))).trans (W4_arr m ρ c 8),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)
    (run_kept m ρ)

end Cert.KernelIdeal.Whole

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibMatmulRows.lean ====
/-
  A matrix product whose right operand is given by rows.

  When the right operand of a `tpu.matmul` into the zero accumulator is the transpose of an `N × K` array `r`, the entry
  at row `p`, column `q` is, at the ideal values, the inner product of row `p` of the left operand with row `q` of `r`:
  the sum over `k` of `l (p, k) · r (q, k)`.
-/
import proofs.«165461_j30674656428557_2_alg».proof.Proof.LibPlainDot
import Idealize.ShloMosaic.Lib.ValueLayout

noncomputable section

open scoped BigOperators

namespace Cert.Lib.MatmulRows

open Idealize.ShloMosaic Idealize.ShloMosaic.ValueIdx

variable {M K N : Nat}

/-- The product with a transposed right operand, at entry `(p, q)`: the inner product of two rows. -/
theorem matmul_transposed_apply {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![N, K]⟩ φ₂)
    (ht : (⟨2, ![N, K]⟩ : Shape).Transposes [1, 0] ⟨2, ![K, N]⟩) (p : Fin M) (q : Fin N) :
    FloatOps.matmul D prec l (transpose ⟨2, ![K, N]⟩ [1, 0] r ht) (constant ⟨2, ![M, N]⟩ .f32 0x00000000#32) (ix2 p q)
      = ∑ k : Fin K, l (ix2 p k) * r (ix2 q k) := by
  subst hD
  rw [Cert.Lib.PlainDot.matmul_zero_apply]
  exact Finset.sum_congr rfl fun k _ => by rw [transpose_ix2_apply]

end Cert.Lib.MatmulRows

end
-- ==== Proof.LibRowForms.lean ====
/-
  General facts about arrays with a leading unit axis, read at an entry.

  * A [1, B, C] slab viewed as a [B, C] matrix reads, at (p, q), the slab at (0, p, q) (unslab_apply).
  * A [1, M] row viewed as a vector of length M reads, at p, the row at (0, p) (rowVec_apply).
  * A [1, N] row repeated down M rows reads, at (p, q), the row at (0, q) (rowBroadcast_apply).
  * A vector of length M viewed as a [1, M] row reads, at (0, p), the vector at p (vecRow_apply).
-/
import Idealize.ShloMosaic.Lib.ValueIdx
import Idealize.ShloMosaic.Lib.Pipeline.Value

noncomputable section

namespace Cert.Lib.RowForms

open Idealize.ShloMosaic Idealize.ShloMosaic.ValueIdx

variable {α : Type} {M N B C : Nat}

/-- A [1, B, C] slab viewed as a [B, C] matrix: entry (p, q) is entry (0, p, q). -/
theorem unslab_apply (v : (⟨3, ![1, B, C]⟩ : Shape).Idx → α) (h : (⟨3, ![1, B, C]⟩ : Shape).ShapeCasts ⟨2, ![B, C]⟩)
    (p : Fin B) (q : Fin C) : shapeCast ⟨2, ![B, C]⟩ v h (ix2 p q) = v (ix3 (0 : Fin 1) p q) :=
  shapeCast_apply v h (ix2 p q) (ix3 (0 : Fin 1) p q) (by
    rw [Shape.rowMajor_val_two, Shape.rowMajor_val_three]
    show (0 * B + p.val) * C + q.val = p.val * C + q.val
    rw [Nat.zero_mul, Nat.zero_add])

/-- A [1, M] row viewed as a vector of length M: entry p is entry (0, p). -/
theorem rowVec_apply (v : (⟨2, ![1, M]⟩ : Shape).Idx → α) (h : (⟨2, ![1, M]⟩ : Shape).ShapeCasts ⟨1, ![M]⟩)
    (p : Fin M) : shapeCast ⟨1, ![M]⟩ v h (ix1 p) = v (ix2 (0 : Fin 1) p) :=
  shapeCast_apply v h (ix1 p) (ix2 (0 : Fin 1) p) (by
    rw [Shape.rowMajor_val_one, Shape.rowMajor_val_two]
    show 0 * M + p.val = p.val
    rw [Nat.zero_mul, Nat.zero_add])

/-- A [1, N] row repeated down M rows: entry (p, q) is the row's entry (0, q). -/
theorem rowBroadcast_apply (v : (⟨2, ![1, N]⟩ : Shape).Idx → α) (h : (⟨2, ![1, N]⟩ : Shape).Broadcasts ⟨2, ![M, N]⟩)
    (p : Fin M) (q : Fin N) : broadcastTo ⟨2, ![M, N]⟩ v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by
        show q.val = if N = 1 then 0 else q.val
        split
        · have := q.isLt; omega
        · rfl)

/-- A vector of length M viewed as a [1, M] row: entry (0, p) is entry p. -/
theorem vecRow_apply (v : (⟨1, ![M]⟩ : Shape).Idx → α) (h : (⟨1, ![M]⟩ : Shape).ShapeCasts ⟨2, ![1, M]⟩)
    (p : Fin M) : shapeCast ⟨2, ![1, M]⟩ v h (ix2 (0 : Fin 1) p) = v (ix1 p) :=
  shapeCast_apply v h (ix2 (0 : Fin 1) p) (ix1 p) (by
    rw [Shape.rowMajor_val_one, Shape.rowMajor_val_two]
    show p.val = 0 * M + p.val
    rw [Nat.zero_mul, Nat.zero_add])

end Cert.Lib.RowForms

end
-- ==== Proof.LibRowLayer.lean ====
/-
  A dense layer whose weight is stored by output rows, read one row at a time on the extended reals.

  For a weight `W` of `N` rows and `K` columns and a bias of length `N`, a row `v` of `K` entries goes to the row whose
  entry `q` is `∑ k, v k · W (q, k) + b q` (`affRow`); `posRow` is the positive part entry by entry. Two spellings of
  that layer on an `M × K` array are read at entry `(p, q)` as `affRow` of row `p`:

  * the vector unit's — a product into zero of the array with the TRANSPOSED weight, both narrowed to a shorter float
    format first (the identity on extended reals), plus a loaded `1 × N` bias row repeated down the rows
    (`unit_affine_apply`), and a maximum with a splat zero (`unit_pos_apply`);
  * the host's — a `dot_general` with the transposed weight plus the bias vector broadcast in two steps, `[N] → [1, N] →
    [M, N]` (`host_affine_apply`), and a maximum with a zero broadcast from a scalar (`host_pos_apply`).
-/
import Idealize.ShloMosaic.Lib.ValueIdx
import Idealize.ShloMosaic.Lib.Pipeline.Value
import Idealize.ShloMosaic.Lib.ValueLayout
import Idealize.ShloMosaic.PureOps.Ideal.Laws
import proofs.«165461_j30674656428557_2_alg».proof.Proof.LibPlainDot
import proofs.«165461_j30674656428557_2_alg».proof.Proof.LibMatmulRows
import proofs.«165461_j30674656428557_2_alg».proof.Proof.LibRowForms

noncomputable section

open scoped BigOperators

namespace Cert.Lib.RowLayer

open Idealize.ShloMosaic Idealize.ShloMosaic.ValueIdx

variable {M K N : Nat}

/-- A row `v` of `K` entries through an affine layer whose `N × K` weight is stored by output rows: entry `q` is
    `∑ k, v k · W (q, k) + b q`. -/
def affRow (v : Fin K → EReal) (W : (⟨2, ![N, K]⟩ : Shape).Idx → EReal) (b : Fin N → EReal) : Fin N → EReal :=
  fun q => (∑ k : Fin K, v k * W (ix2 q k)) + b q

/-- The positive part of a row, entry by entry. -/
def posRow (v : Fin N → EReal) : Fin N → EReal := fun q => max (v q) 0

/-! ## The vector unit's spelling -/

/-- A product into zero of the narrowed block with the narrowed, transposed weight, plus the loaded bias row repeated
    down the rows, at entry `(p, q)`: row `p` of the block through the affine layer. -/
theorem unit_affine_apply (D : DotDims ⟨2, ![M, K]⟩ ⟨2, ![K, N]⟩ ⟨2, ![M, N]⟩) (hD : D = DotDims.plain M K N)
    (x : FVec Ideal ⟨2, ![M, K]⟩ .f32) (w : FVec Ideal ⟨2, ![N, K]⟩ .f32) (b : FVec Ideal ⟨2, ![1, N]⟩ .f32)
    (hb0 hb1 : FTy.bf16.bits < FTy.f32.bits)
    (ht : (⟨2, ![N, K]⟩ : Shape).Transposes [1, 0] ⟨2, ![K, N]⟩)
    (hc : (⟨2, ![1, N]⟩ : Shape).ShapeCasts ⟨2, ![1, N]⟩) (hbr : (⟨2, ![1, N]⟩ : Shape).Broadcasts ⟨2, ![M, N]⟩)
    (p : Fin M) (q : Fin N) :
    addf (FloatOps.matmul D none (truncf .bf16 x hb0) (transpose ⟨2, ![K, N]⟩ [1, 0] (truncf .bf16 w hb1) ht)
        (constant ⟨2, ![M, N]⟩ .f32 0x00000000#32))
      (broadcastTo ⟨2, ![M, N]⟩ (shapeCast ⟨2, ![1, N]⟩ b hc) hbr) (ix2 p q)
      = affRow (fun k => x (ix2 p k)) w (fun q => b (ix2 (0 : Fin 1) q)) q := by
  rw [addf_apply, Cert.Lib.MatmulRows.matmul_transposed_apply D hD, shapeCast_self,
    Cert.Lib.RowForms.rowBroadcast_apply]
  rfl

/-- The maximum with a splat zero, at an entry. -/
theorem unit_pos_apply {s : Shape} (v : FVec Ideal s .f32) (i : s.Idx) :
    maximumf v (broadcast s (Scalar.ofBits (F := Ideal) .f32 0x00000000#32)) i = max (v i) 0 := by
  rw [maximumf_apply, broadcast_apply]
  show max _ (Ideal.ofBits .f32 0x00000000#32) = _
  rw [Ideal.ofBits_zero_f32]

/-! ## The host's spelling -/

/-- A `dot_general` with the transposed weight plus the bias broadcast in two steps, at entry `(p, q)`: row `p` through
    the affine layer. -/
theorem host_affine_apply (D : DotDims ⟨2, ![M, K]⟩ ⟨2, ![K, N]⟩ ⟨2, ![M, N]⟩) (hD : D = DotDims.plain M K N)
    (x : FVec Ideal ⟨2, ![M, K]⟩ .f32) (w : FVec Ideal ⟨2, ![N, K]⟩ .f32) (b : FVec Ideal ⟨1, ![N]⟩ .f32)
    (ht : (⟨2, ![N, K]⟩ : Shape).Transposes [1, 0] ⟨2, ![K, N]⟩)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (p : Fin M) (q : Fin N) :
    addf (Host.dotGeneral D none x (transpose ⟨2, ![K, N]⟩ [1, 0] w ht))
      (broadcastInDim ⟨2, ![M, N]⟩ ![0, 1] h2 (broadcastInDim ⟨2, ![1, N]⟩ ![1] h1 b)) (ix2 p q)
      = affRow (fun k => x (ix2 p k)) w (fun q => b (ix1 q)) q := by
  subst hD
  rw [addf_apply]
  show FloatOps.dotGeneral (DotDims.plain M K N) none .single x _ (ix2 p q) + _ = _
  rw [Cert.Lib.PlainDot.dotGeneral_apply]
  have hb : broadcastInDim ⟨2, ![M, N]⟩ ![0, 1] h2 (broadcastInDim ⟨2, ![1, N]⟩ ![1] h1 b) (ix2 p q) = b (ix1 q) := by
    refine (broadcastInDim_apply _ h2 _ (ix2 p q) (ix2 (0 : Fin 1) q) (fun a => ?_)).trans ?_
    · match a with
      | ⟨0, _⟩ => exact (if_pos rfl).symm
      | ⟨1, _⟩ =>
        show q.val = if N = 1 then 0 else q.val
        split
        · have := q.isLt; omega
        · rfl
    · refine broadcastInDim_apply _ h1 b (ix2 (0 : Fin 1) q) (ix1 q) (fun a => ?_)
      match a with
      | ⟨0, _⟩ =>
        show q.val = if N = 1 then 0 else q.val
        split
        · have := q.isLt; omega
        · rfl
  rw [hb]
  exact congrArg (· + b (ix1 q)) (Finset.sum_congr rfl fun k _ => by rw [transpose_ix2_apply])

/-- The maximum with a zero broadcast from a scalar, at an entry. -/
theorem host_pos_apply {s : Shape} (v : FVec Ideal s .f32)
    (h : (⟨0, ![]⟩ : Shape).BroadcastsInDim s (![] : Fin 0 → Fin s.rank)) (i : s.Idx) :
    maximumf v (broadcastInDim s ![] h (constant (F := Ideal) ⟨0, ![]⟩ .f32 0x00000000#32)) i = max (v i) 0 := by
  rw [maximumf_apply, broadcastInDim_apply _ h _ i (fun a => a.elim0) (fun a => a.elim0), constant_apply,
    Ideal.ofBits_zero_f32]

end Cert.Lib.RowLayer

end
-- ==== Proof.Rows.lean ====
/-
  One row through the layers of a graph adapter, on the extended reals.

  Every result entry of the adapter depends on one row of its inputs only, so the whole computation is stated for a
  single row, over the affine layer `affRow` and the positive part `posRow` of a row: two rows of 64 entries laid end to
  end (`catRow`), an edge's 64 time features followed by a one (`edgeRow`), and a node's output row from its feature row
  and its aggregated time features (`outRow`).
-/
import proofs.«165461_j30674656428557_2_alg».proof.Proof.LibRowLayer

noncomputable section

open scoped BigOperators

namespace Cert.Adapter

open Idealize.ShloMosaic Idealize.ShloMosaic.ValueIdx

export Cert.Lib.RowLayer (affRow posRow unit_affine_apply unit_pos_apply host_affine_apply host_pos_apply)

/-- Two rows of 64 entries laid end to end. -/
def catRow (u v : Fin 64 → EReal) : Fin 128 → EReal :=
  fun k => if h : k.val < 64 then u ⟨k.val, h⟩ else v ⟨k.val - 64, by have := k.isLt; omega⟩

/-- An edge's row: the positive part of the time projection of its 32 attributes, then the number one (whose sum over
    a node's edges counts them). -/
def edgeRow (a : Fin 32 → EReal) (Wt : (⟨2, ![64, 32]⟩ : Shape).Idx → EReal) (bt : Fin 64 → EReal) : Fin 65 → EReal :=
  fun q => if h : q.val < 64 then posRow (affRow a Wt bt) ⟨q.val, h⟩ else Ideal.ofBits .f32 0x3F800000#32

/-- A node's output row from its 256 features `x` and its 64 aggregated time features `t`: down-projection and positive
    part, joined with `t`, fused and positive part, up-projection, added back onto `x`. -/
def outRow (x : Fin 256 → EReal) (t : Fin 64 → EReal)
    (Wd : (⟨2, ![64, 256]⟩ : Shape).Idx → EReal) (bd : Fin 64 → EReal)
    (Wf : (⟨2, ![64, 128]⟩ : Shape).Idx → EReal) (bf : Fin 64 → EReal)
    (Wu : (⟨2, ![256, 64]⟩ : Shape).Idx → EReal) (bu : Fin 256 → EReal) : Fin 256 → EReal :=
  fun j => x j + affRow (posRow (affRow (catRow (posRow (affRow x Wd bd)) t) Wf bf)) Wu bu j

end Cert.Adapter

end
-- ==== Proof.LibConcatRead.lean ====
/-
  Two-piece concatenations of small rank read at an entry.

  A concatenation of two arrays along an axis reads, at an index whose coordinate on that axis is below the first
  piece's extent, the first piece at the same coordinates; at or past it, the second piece with that coordinate lowered
  by the first extent. Stated here for the three forms a row- and lane-packing meets: two rank-2 arrays side by side
  (along the columns), two rank-2 arrays stacked (along the rows), and two rank-1 arrays end to end.
-/
import Idealize.ShloMosaic.Lib.ValueIdx
import Idealize.ShloMosaic.Lib.Pipeline.Value

noncomputable section

namespace Cert.Lib.ConcatRead

open Idealize.ShloMosaic Idealize.ShloMosaic.ValueIdx

variable {α : Type}

/-- Side by side, a column of the first piece. -/
theorem cols_left {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₁)
    (hq : q'.val = q.val) :
    concatenate ⟨2, ![a, n]⟩ 1 [⟨⟨2, ![a, b₁]⟩, x₁⟩, ⟨⟨2, ![a, b₂]⟩, x₂⟩] h (ix2 p q) = x₁ (ix2 p q') :=
  concatenate_pair_apply_left 1 x₁ x₂ h (ix2 p q) rfl (ix2 p q') fun b => by
    match b with
    | ⟨0, _⟩ => rfl
    | ⟨1, _⟩ => exact hq

/-- Side by side, a column of the second piece. -/
theorem cols_right {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₂)
    (hq : q'.val + b₁ = q.val) :
    concatenate ⟨2, ![a, n]⟩ 1 [⟨⟨2, ![a, b₁]⟩, x₁⟩, ⟨⟨2, ![a, b₂]⟩, x₂⟩] h (ix2 p q) = x₂ (ix2 p q') :=
  concatenate_pair_apply_right 1 x₁ x₂ h (ix2 p q) rfl rfl (ix2 p q') (fun b hb => by
    match b with
    | ⟨0, _⟩ => rfl
    | ⟨1, _⟩ => exact absurd rfl hb) hq

/-- Stacked, a row of the first piece. -/
theorem rows_left {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₁)
    (hp : p'.val = p.val) :
    concatenate ⟨2, ![n, b]⟩ 0 [⟨⟨2, ![a₁, b]⟩, x₁⟩, ⟨⟨2, ![a₂, b]⟩, x₂⟩] h (ix2 p q) = x₁ (ix2 p' q) :=
  concatenate_pair_apply_left 0 x₁ x₂ h (ix2 p q) rfl (ix2 p' q) fun b => by
    match b with
    | ⟨0, _⟩ => exact hp
    | ⟨1, _⟩ => rfl

/-- Stacked, a row of the second piece. -/
theorem rows_right {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₂)
    (hp : p'.val + a₁ = p.val) :
    concatenate ⟨2, ![n, b]⟩ 0 [⟨⟨2, ![a₁, b]⟩, x₁⟩, ⟨⟨2, ![a₂, b]⟩, x₂⟩] h (ix2 p q) = x₂ (ix2 p' q) :=
  concatenate_pair_apply_right 0 x₁ x₂ h (ix2 p q) rfl rfl (ix2 p' q) (fun b hb => by
    match b with
    | ⟨0, _⟩ => exact absurd rfl hb
    | ⟨1, _⟩ => rfl) hp

/-- End to end, an entry of the first piece. -/
theorem vec_left {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₁) (hp : p'.val = p.val) :
    concatenate ⟨1, ![n]⟩ 0 [⟨⟨1, ![a₁]⟩, x₁⟩, ⟨⟨1, ![a₂]⟩, x₂⟩] h (ix1 p) = x₁ (ix1 p') :=
  concatenate_pair_apply_left 0 x₁ x₂ h (ix1 p) rfl (ix1 p') fun b => by
    match b with
    | ⟨0, _⟩ => exact hp

/-- End to end, an entry of the second piece. -/
theorem vec_right {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₂) (hp : p'.val + a₁ = p.val) :
    concatenate ⟨1, ![n]⟩ 0 [⟨⟨1, ![a₁]⟩, x₁⟩, ⟨⟨1, ![a₂]⟩, x₂⟩] h (ix1 p) = x₂ (ix1 p') :=
  concatenate_pair_apply_right 0 x₁ x₂ h (ix1 p) rfl rfl (ix1 p') (fun b hb => by
    match b with
    | ⟨0, _⟩ => exact absurd rfl hb) hp

end Cert.Lib.ConcatRead

end
-- ==== Proof.Nodes.lean ====
/-
  The second grid: every node's output row.

  Grid point `t` loads rows `2000·t … 2000·t + 1999` of the node features and of the aggregated time features, and the
  three weights and bias rows whole, and stores for each of its rows the output row: the down-projection's positive part
  joined with the time features, fused and positive part, up-projection, added back onto the features. What the point
  stores at `(p, j)` is `outRow` of rows `p` of its two blocks (`pay_apply`); the blocks are rows `2000·t …` of the arrays;
  the 25 blocks tile the output: after the grid the output array holds `outRow` of every node's two rows (`final`).
-/
import proofs.«165461_j30674656428557_2_alg».proof.Proof.Gen.KernelIdeal.Frame
import proofs.«165461_j30674656428557_2_alg».proof.Proof.Rows
import proofs.«165461_j30674656428557_2_alg».proof.Proof.LibConcatRead
import Idealize.ShloMosaic.Lib.Pipeline.Value
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Nodes

open Cert.KernelIdeal Cert.KernelIdeal.Gen Cert.Adapter

theorem hz : (![0, 0] : Fin 2 → Nat) = fun _ => 0 := funext fun a => by fin_cases a <;> rfl

/-- The body's stored block at entry `(p, j)`: rows `p` of the two loaded blocks through `outRow`. -/
theorem pay_apply (x0 : Vec Ideal S2000x256 .f32) (x1 : Vec Ideal S2000x64 .f32) (x3 : Vec Ideal S64x256 .f32)
    (x8 : Vec Ideal S1x64 .f32) (x15 : Vec Ideal S64x128 .f32) (x20 : Vec Ideal S1x64 .f32)
    (x26 : Vec Ideal S256x64 .f32) (x31 : Vec Ideal S1x256 .f32) (p : Fin 2000) (j : Fin 256) :
    k1_pay1 x0 x1 x3 x8 x15 x20 x26 x31 (ix2 p j)
      = outRow (fun k => x0 (ix2 p k)) (fun k => x1 (ix2 p k)) x3 (fun q => x8 (ix2 (0 : Fin 1) q))
          x15 (fun q => x20 (ix2 (0 : Fin 1) q)) x26 (fun q => x31 (ix2 (0 : Fin 1) q)) j := by
  unfold k1_pay1 outRow
  rw [addf_apply, unit_affine_apply dot_S2000x64_S64x256_S2000x256_1_0_0_1_n_n rfl]
  refine congrArg (fun r => x0 (ix2 p j) + affRow r x26 (fun q => x31 (ix2 (0 : Fin 1) q)) j) (funext fun k => ?_)
  rw [unit_pos_apply, unit_affine_apply dot_S2000x128_S128x64_S2000x64_1_0_0_1_n_n rfl]
  refine congrArg (fun r => max (affRow r x15 (fun q => x20 (ix2 (0 : Fin 1) q)) k) 0) (funext fun k' => ?_)
  unfold catRow
  by_cases h : k'.val < 64
  · rw [dif_pos h, Cert.Lib.ConcatRead.cols_left _ _ _ p k' ⟨k'.val, h⟩ rfl, unit_pos_apply,
      unit_affine_apply dot_S2000x256_S256x64_S2000x64_1_0_0_1_n_n rfl]
    rfl
  · have hk : k'.val < 128 := k'.isLt
    rw [dif_neg h, Cert.Lib.ConcatRead.cols_right _ _ _ p k' (⟨k'.val - 64, by omega⟩ : Fin 64)
      (by show k'.val - 64 + 64 = k'.val; omega), shapeCast_self]

theorem outRow_congr {x x' : Fin 256 → EReal} {t t' : Fin 64 → EReal}
    {Wd Wd' : (⟨2, ![64, 256]⟩ : Shape).Idx → EReal} {bd bd' : Fin 64 → EReal}
    {Wf Wf' : (⟨2, ![64, 128]⟩ : Shape).Idx → EReal} {bf bf' : Fin 64 → EReal}
    {Wu Wu' : (⟨2, ![256, 64]⟩ : Shape).Idx → EReal} {bu bu' : Fin 256 → EReal} {j j' : Fin 256}
    (hx : ∀ k, x k = x' k) (ht : ∀ k, t k = t' k) (hWd : Wd = Wd') (hbd : ∀ q, bd q = bd' q)
    (hWf : Wf = Wf') (hbf : ∀ q, bf q = bf' q) (hWu : Wu = Wu') (hbu : ∀ q, bu q = bu' q) (hj : j = j') :
    outRow x t Wd bd Wf bf Wu bu j = outRow x' t' Wd' bd' Wf' bf' Wu' bu' j' := by
  rw [show x = x' from funext hx, show t = t' from funext ht, hWd, show bd = bd' from funext hbd, hWf,
    show bf = bf' from funext hbf, hWu, show bu = bu' from funext hbu, hj]

variable (V : (c : Dev nD) → (b : Ref sig .tc) → Buf (Elt Ideal) ((c : Thread nD τ).loc b))

/-- The array of all nodes' output rows, from the arrays the grid is entered with. -/
def nodeArr (X : S50000x256.Idx → EReal) (T : S50000x64.Idx → EReal) (Wd : S64x256.Idx → EReal) (Bd : S1x64.Idx → EReal)
    (Wf : S64x128.Idx → EReal) (Bf : S1x64.Idx → EReal) (Wu : S256x64.Idx → EReal) (Bu : S1x256.Idx → EReal) :
    S50000x256.Idx → EReal :=
  fun i => outRow (fun k => X (ix2 ⟨(i 0).val, (i 0).isLt⟩ k)) (fun k => T (ix2 ⟨(i 0).val, (i 0).isLt⟩ k))
    Wd (fun q => Bd (ix2 (0 : Fin 1) q)) Wf (fun q => Bf (ix2 (0 : Fin 1) q)) Wu (fun q => Bu (ix2 (0 : Fin 1) q))
    ⟨(i 1).val, (i 1).isLt⟩

/-- Where each window's block sits at grid point `t`: the two row blocks and the output block are the `t`-th run of
    2000 rows, the weights and bias rows are whole. -/
theorem where1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

theorem feat_block (c : Dev nD) (t : Fin cfg1.N) (p : Fin 2000) (k : Fin 256) (n : Fin 50000)
    (hn : n.val = t.val * 2000 + p.val) :
    (iblk1 V c 0 t : Vec Ideal S2000x256 .f32) (ix2 p k) = (V c main_arg0 : S50000x256.Idx → EReal) (ix2 n k) := by
  obtain ⟨e0, e1, -⟩ := where1 t
  unfold iblk1
  rw [View.read_apply]
  show V c main_arg0 _ = V c main_arg0 _
  congr 1
  funext a
  apply Fin.ext
  match a with
  | ⟨0, _⟩ => show win1_0.index t 0 * 2000 + 1 * p.val = n.val; rw [e0, hn]; omega
  | ⟨1, _⟩ => show win1_0.index t 1 * 256 + 1 * k.val = k.val; rw [e1]; omega

theorem time_block (c : Dev nD) (t : Fin cfg1.N) (p : Fin 2000) (k : Fin 64) (n : Fin 50000)
    (hn : n.val = t.val * 2000 + p.val) :
    (iblk1 V c 1 t : Vec Ideal S2000x64 .f32) (ix2 p k) = (V c main_v15 : S50000x64.Idx → EReal) (ix2 n k) := by
  obtain ⟨-, -, e0, e1, -⟩ := where1 t
  unfold iblk1
  rw [View.read_apply]
  show V c main_v15 _ = V c main_v15 _
  congr 1
  funext a
  apply Fin.ext
  match a with
  | ⟨0, _⟩ => show win1_1.index t 0 * 2000 + 1 * p.val = n.val; rw [e0, hn]; omega
  | ⟨1, _⟩ => show win1_1.index t 1 * 64 + 1 * k.val = k.val; rw [e1]; omega

theorem wd_block (c : Dev nD) (t : Fin cfg1.N) :
    (iblk1 V c 2 t : Vec Ideal S64x256 .f32) = (V c main_arg3 : S64x256.Idx → EReal) := by
  obtain ⟨-, -, -, -, e0, e1, -⟩ := where1 t
  unfold iblk1
  funext i
  rw [View.read_apply]
  show V c main_arg3 _ = V c main_arg3 _
  congr 1
  funext a
  apply Fin.ext
  match a with
  | ⟨0, _⟩ => show win1_2.index t 0 * 64 + 1 * (i 0).val = (i 0).val; rw [e0]; omega
  | ⟨1, _⟩ => show win1_2.index t 1 * 256 + 1 * (i 1).val = (i 1).val; rw [e1]; omega

theorem bd_block (c : Dev nD) (t : Fin cfg1.N) :
    (iblk1 V c 3 t : Vec Ideal S1x64 .f32) = (V c main_v16 : S1x64.Idx → EReal) := by
  obtain ⟨-, -, -, -, -, -, e0, e1, -⟩ := where1 t
  unfold iblk1
  funext i
  rw [View.read_apply]
  show V c main_v16 _ = V c main_v16 _
  congr 1
  funext a
  apply Fin.ext
  match a with
  | ⟨0, _⟩ => show win1_3.index t 0 * 1 + 1 * (i 0).val = (i 0).val; rw [e0]; omega
  | ⟨1, _⟩ => show win1_3.index t 1 * 64 + 1 * (i 1).val = (i 1).val; rw [e1]; omega

theorem wf_block (c : Dev nD) (t : Fin cfg1.N) :
    (iblk1 V c 4 t : Vec Ideal S64x128 .f32) = (V c main_arg7 : S64x128.Idx → EReal) := by
  obtain ⟨-, -, -, -, -, -, -, -, e0, e1, -⟩ := where1 t
  unfold iblk1
  funext i
  rw [View.read_apply]
  show V c main_arg7 _ = V c main_arg7 _
  congr 1
  funext a
  apply Fin.ext
  match a with
  | ⟨0, _⟩ => show win1_4.index t 0 * 64 + 1 * (i 0).val = (i 0).val; rw [e0]; omega
  | ⟨1, _⟩ => show win1_4.index t 1 * 128 + 1 * (i 1).val = (i 1).val; rw [e1]; omega

theorem bf_block (c : Dev nD) (t : Fin cfg1.N) :
    (iblk1 V c 5 t : Vec Ideal S1x64 .f32) = (V c main_v17 : S1x64.Idx → EReal) := by
  obtain ⟨-, -, -, -, -, -, -, -, -, -, e0, e1, -⟩ := where1 t
  unfold iblk1
  funext i
  rw [View.read_apply]
  show V c main_v17 _ = V c main_v17 _
  congr 1
  funext a
  apply Fin.ext
  match a with
  | ⟨0, _⟩ => show win1_5.index t 0 * 1 + 1 * (i 0).val = (i 0).val; rw [e0]; omega
  | ⟨1, _⟩ => show win1_5.index t 1 * 64 + 1 * (i 1).val = (i 1).val; rw [e1]; omega

theorem wu_block (c : Dev nD) (t : Fin cfg1.N) :
    (iblk1 V c 6 t : Vec Ideal S256x64 .f32) = (V c main_arg9 : S256x64.Idx → EReal) := by
  obtain ⟨-, -, -, -, -, -, -, -, -, -, -, -, e0, e1, -⟩ := where1 t
  unfold iblk1
  funext i
  rw [View.read_apply]
  show V c main_arg9 _ = V c main_arg9 _
  congr 1
  funext a
  apply Fin.ext
  match a with
  | ⟨0, _⟩ => show win1_6.index t 0 * 256 + 1 * (i 0).val = (i 0).val; rw [e0]; omega
  | ⟨1, _⟩ => show win1_6.index t 1 * 64 + 1 * (i 1).val = (i 1).val; rw [e1]; omega

theorem bu_block (c : Dev nD) (t : Fin cfg1.N) :
    (iblk1 V c 7 t : Vec Ideal S1x256 .f32) = (V c main_v18 : S1x256.Idx → EReal) := by
  obtain ⟨-, -, -, -, -, -, -, -, -, -, -, -, -, -, e0, e1, -⟩ := where1 t
  unfold iblk1
  funext i
  rw [View.read_apply]
  show V c main_v18 _ = V c main_v18 _
  congr 1
  funext a
  apply Fin.ext
  match a with
  | ⟨0, _⟩ => show win1_7.index t 0 * 1 + 1 * (i 0).val = (i 0).val; rw [e0]; omega
  | ⟨1, _⟩ => show win1_7.index t 1 * 256 + 1 * (i 1).val = (i 1).val; rw [e1]; omega

/-- What grid point `t` writes back is block `t` of `nodeArr`. -/
theorem flushed_eq (c : Dev nD) (t : Fin cfg1.N) :
    (dat1 V c).flushed 8 t = ((cfg1.win 8).blk t).view.read (Elt Ideal)
      (nodeArr (V c main_arg0) (V c main_v15) (V c main_arg3) (V c main_v16) (V c main_arg7) (V c main_v17)
        (V c main_arg9) (V c main_v18)) := by
  show (cfg1.win 8).cut (grid1.coords t) ((dat1 V c).after 8 t) = _
  rw [after1_8]
  unfold out1_8
  rw [View.canon_unit_zero hz]
  simp only [View.ld_unit_zero (S := S2000x256) hz, View.ld_unit_zero (S := S2000x64) hz,
    View.ld_unit_zero (S := S64x256) hz, View.ld_unit_zero (S := S1x64) hz, View.ld_unit_zero (S := S64x128) hz,
    View.ld_unit_zero (S := S256x64) hz, View.ld_unit_zero (S := S1x256) hz]
  obtain ⟨-, -, -, -, -, -, -, -, -, -, -, -, -, -, -, -, e0, e1⟩ := where1 t
  have hN : cfg1.N = 25 := N_1
  funext j
  have hj0 : (j 0).val < 2000 := Nat.lt_of_lt_of_le (j 0).isLt ((win1 8).xsize_le (grid1.coords t) 0)
  have hj1 : (j 1).val < 256 := Nat.lt_of_lt_of_le (j 1).isLt ((win1 8).xsize_le (grid1.coords t) 1)
  have hx : (win1 8).xinj (grid1.coords t) j = ix2 (⟨(j 0).val, hj0⟩ : Fin 2000) (⟨(j 1).val, hj1⟩ : Fin 256) :=
    funext fun a => by
      match a with
      | ⟨0, _⟩ => rfl
      | ⟨1, _⟩ => rfl
  show k1_pay1 (iblk1 V c 0 t) (iblk1 V c 1 t) (iblk1 V c 2 t) (iblk1 V c 3 t) (iblk1 V c 4 t) (iblk1 V c 5 t)
    (iblk1 V c 6 t) (iblk1 V c 7 t) ((win1 8).xinj (grid1.coords t) j) = _
  rw [hx, pay_apply, View.read_apply, wd_block, bd_block, wf_block, bf_block, wu_block, bu_block]
  have ht := t.isLt
  have hr0 : ((((cfg1.win 8).blk t).view.emb j) 0).val = t.val * 2000 + (j 0).val := by
    show win1_8.index t 0 * 2000 + 1 * (j 0).val = _; rw [e0]; omega
  have hr1 : ((((cfg1.win 8).blk t).view.emb j) 1).val = (j 1).val := by
    show win1_8.index t 1 * 256 + 1 * (j 1).val = _; rw [e1]; omega
  unfold nodeArr
  exact outRow_congr (fun k => feat_block V c t _ k _ hr0) (fun k => time_block V c t _ k _ hr0) rfl (fun _ => rfl)
    rfl (fun _ => rfl) rfl (fun _ => rfl) (Fin.ext hr1.symm)

/-- An index of the output lies in point `t`'s block iff each coordinate is in the block's range. -/
theorem mem_blk (t : Fin cfg1.N) (i : S50000x256.Idx) :
    i ∈ ((cfg1.win 8).blk t).view.set ↔ ∀ a : Fin 2, win1_8.index t a * S2000x256.size a ≤ (i a).val
      ∧ (i a).val < win1_8.index t a * S2000x256.size a + S2000x256.size a := by
  show i ∈ ((View.whole main_v19).slice (win1_8.rect t)).set ↔ _
  rw [View.set_slice_whole, Rect.mem_set_unit]
  exact Iff.rfl

/-- Row `r` of the output is written by point `r / 2000`. -/
theorem cover (i : S50000x256.Idx) :
    ∃ t : Fin cfg1.N, (cfg1.win 8).flush t = true ∧ i ∈ ((cfg1.win 8).blk t).view.set := by
  have hi0 : (i 0).val < 50000 := (i 0).isLt
  have hi1 : (i 1).val < 256 := (i 1).isLt
  have hN : cfg1.N = 25 := N_1
  obtain ⟨t, ht⟩ : ∃ t : Fin cfg1.N, t.val = (i 0).val / 2000 := ⟨⟨(i 0).val / 2000, by omega⟩, rfl⟩
  obtain ⟨-, -, -, -, -, -, -, -, -, -, -, -, -, -, -, -, e0, e1⟩ := where1 t
  refine ⟨t, flush1_8 t, ?_⟩
  rw [mem_blk]
  intro a
  match a with
  | ⟨0, _⟩ =>
    show win1_8.index t 0 * 2000 ≤ (i 0).val ∧ (i 0).val < win1_8.index t 0 * 2000 + 2000
    rw [e0, ht]; omega
  | ⟨1, _⟩ =>
    show win1_8.index t 1 * 256 ≤ (i 1).val ∧ (i 1).val < win1_8.index t 1 * 256 + 256
    rw [e1]; omega

/-- After the grid the output array holds every node's output row. -/
theorem final (c : Dev nD) :
    (dat1 V c).arrAt 8 cfg1.N = nodeArr (V c main_arg0) (V c main_v15) (V c main_arg3) (V c main_v16) (V c main_arg7)
      (V c main_v17) (V c main_arg9) (V c main_v18) :=
  (dat1 V c).arrAt_eq_of_cover 8 _ (fun t _ => flushed_eq V c t) cover

end Cert.KernelIdeal.Nodes
end
-- ==== Proof.Edges.lean ====
/-
  The first grid: every edge's row of time features with a trailing one.

  Grid point `t` loads rows `10000·t … 10000·t + 9999` of the edge attributes, the whole time weight and the bias row,
  and stores, for each of its rows, the positive part of the time projection in columns 0–63 and the number one in
  column 64. So what the point stores at `(p, q)` is `edgeRow` of attribute row `p` of its block (`pay_apply`), its
  block is rows `10000·t …` of the array (`attr_block`), and the 160 blocks tile the output: after the grid the output
  array holds `edgeRow` of every edge's attribute row (`final`).
-/
import proofs.«165461_j30674656428557_2_alg».proof.Proof.Gen.KernelIdeal.Frame
import proofs.«165461_j30674656428557_2_alg».proof.Proof.Rows
import proofs.«165461_j30674656428557_2_alg».proof.Proof.LibConcatRead
import Idealize.ShloMosaic.Lib.Pipeline.Value
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Edges

open Cert.KernelIdeal Cert.KernelIdeal.Gen Cert.Adapter

theorem hz : (![0, 0] : Fin 2 → Nat) = fun _ => 0 := funext fun a => by fin_cases a <;> rfl

/-- The body's stored block at entry `(p, q)`: row `p` of the loaded attributes through `edgeRow`. -/
theorem pay_apply (x0 : Vec Ideal S10000x32 .f32) (x1 : Vec Ideal S64x32 .f32) (x2 : Vec Ideal S1x64 .f32)
    (p : Fin 10000) (q : Fin 65) :
    k0_pay1 x0 x1 x2 (ix2 p q) = edgeRow (fun k => x0 (ix2 p k)) x1 (fun q => x2 (ix2 (0 : Fin 1) q)) q := by
  unfold k0_pay1 edgeRow
  rw [truncf_apply]
  by_cases h : q.val < 64
  · rw [dif_pos h, Cert.Lib.ConcatRead.cols_left _ _ _ p q ⟨q.val, h⟩ rfl, unit_pos_apply,
      unit_affine_apply dot_S10000x32_S32x64_S10000x64_1_0_0_1_n_n rfl]
    rfl
  · have hq : q.val = 64 := by have := q.isLt; omega
    rw [dif_neg h, Cert.Lib.ConcatRead.cols_right _ _ _ p q (0 : Fin 1) (by simp [hq]), broadcast_apply]
    rfl

theorem edgeRow_congr {a a' : Fin 32 → EReal} {W W' : (⟨2, ![64, 32]⟩ : Shape).Idx → EReal} {b b' : Fin 64 → EReal}
    {q q' : Fin 65} (ha : ∀ k, a k = a' k) (hW : W = W') (hb : ∀ q, b q = b' q) (hq : q = q') :
    edgeRow a W b q = edgeRow a' W' b' q' := by
  rw [show a = a' from funext ha, hW, show b = b' from funext hb, hq]

variable (V : (c : Dev nD) → (b : Ref sig .tc) → Buf (Elt Ideal) ((c : Thread nD τ).loc b))

/-- The array of all edges' rows, from the arrays the grid is entered with. -/
def edgeArr (A : S1600000x32.Idx → EReal) (Wt : S64x32.Idx → EReal) (B : S1x64.Idx → EReal) : S1600000x65.Idx → EReal :=
  fun i => edgeRow (fun k => A (ix2 ⟨(i 0).val, (i 0).isLt⟩ k)) Wt (fun q => B (ix2 (0 : Fin 1) q)) ⟨(i 1).val, (i 1).isLt⟩

/-- Where each window's block sits at grid point `t`: the attribute and output blocks are the `t`-th run of 10000
    rows, the weight and the bias row are whole. -/
theorem where0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem attr_block (c : Dev nD) (t : Fin cfg0.N) (p : Fin 10000) (k : Fin 32) (e : Fin 1600000)
    (he : e.val = t.val * 10000 + p.val) :
    (iblk0 V c 0 t : Vec Ideal S10000x32 .f32) (ix2 p k) = (V c main_arg2 : S1600000x32.Idx → EReal) (ix2 e k) := by
  obtain ⟨e0, e1, -⟩ := where0 t
  unfold iblk0
  rw [View.read_apply]
  show V c main_arg2 _ = V c main_arg2 _
  congr 1
  funext a
  apply Fin.ext
  match a with
  | ⟨0, _⟩ => show win0_0.index t 0 * 10000 + 1 * p.val = e.val; rw [e0, he]; omega
  | ⟨1, _⟩ => show win0_0.index t 1 * 32 + 1 * k.val = k.val; rw [e1]; omega

theorem weight_block (c : Dev nD) (t : Fin cfg0.N) :
    (iblk0 V c 1 t : Vec Ideal S64x32 .f32) = (V c main_arg5 : S64x32.Idx → EReal) := by
  obtain ⟨-, -, e0, e1, -⟩ := where0 t
  unfold iblk0
  funext i
  rw [View.read_apply]
  show V c main_arg5 _ = V c main_arg5 _
  congr 1
  funext a
  apply Fin.ext
  match a with
  | ⟨0, _⟩ => show win0_1.index t 0 * 64 + 1 * (i 0).val = (i 0).val; rw [e0]; omega
  | ⟨1, _⟩ => show win0_1.index t 1 * 32 + 1 * (i 1).val = (i 1).val; rw [e1]; omega

theorem bias_block (c : Dev nD) (t : Fin cfg0.N) :
    (iblk0 V c 2 t : Vec Ideal S1x64 .f32) = (V c main_v0 : S1x64.Idx → EReal) := by
  obtain ⟨-, -, -, -, e0, e1, -⟩ := where0 t
  unfold iblk0
  funext i
  rw [View.read_apply]
  show V c main_v0 _ = V c main_v0 _
  congr 1
  funext a
  apply Fin.ext
  match a with
  | ⟨0, _⟩ => show win0_2.index t 0 * 1 + 1 * (i 0).val = (i 0).val; rw [e0]; omega
  | ⟨1, _⟩ => show win0_2.index t 1 * 64 + 1 * (i 1).val = (i 1).val; rw [e1]; omega

/-- What grid point `t` writes back is block `t` of `edgeArr`. -/
theorem flushed_eq (c : Dev nD) (t : Fin cfg0.N) :
    (dat0 V c).flushed 3 t = ((cfg0.win 3).blk t).view.read (Elt Ideal) (edgeArr (V c main_arg2) (V c main_arg5) (V c main_v0)) := by
  show (cfg0.win 3).cut (grid0.coords t) ((dat0 V c).after 3 t) = _
  rw [after0_3]
  unfold out0_3
  rw [View.canon_unit_zero hz]
  simp only [View.ld_unit_zero (S := S10000x32) hz, View.ld_unit_zero (S := S64x32) hz, View.ld_unit_zero (S := S1x64) hz]
  obtain ⟨-, -, -, -, -, -, e0, e1⟩ := where0 t
  have hN : cfg0.N = 160 := N_0
  funext j
  have hj0 : (j 0).val < 10000 := Nat.lt_of_lt_of_le (j 0).isLt ((win0 3).xsize_le (grid0.coords t) 0)
  have hj1 : (j 1).val < 65 := Nat.lt_of_lt_of_le (j 1).isLt ((win0 3).xsize_le (grid0.coords t) 1)
  have hx : (win0 3).xinj (grid0.coords t) j = ix2 (⟨(j 0).val, hj0⟩ : Fin 10000) (⟨(j 1).val, hj1⟩ : Fin 65) :=
    funext fun a => by
      match a with
      | ⟨0, _⟩ => rfl
      | ⟨1, _⟩ => rfl
  show k0_pay1 (iblk0 V c 0 t) (iblk0 V c 1 t) (iblk0 V c 2 t) ((win0 3).xinj (grid0.coords t) j) = _
  rw [hx, pay_apply, View.read_apply, weight_block, bias_block]
  have ht := t.isLt
  have hr0 : ((((cfg0.win 3).blk t).view.emb j) 0).val = t.val * 10000 + (j 0).val := by
    show win0_3.index t 0 * 10000 + 1 * (j 0).val = _; rw [e0]; omega
  have hr1 : ((((cfg0.win 3).blk t).view.emb j) 1).val = (j 1).val := by
    show win0_3.index t 1 * 65 + 1 * (j 1).val = _; rw [e1]; omega
  unfold edgeArr
  exact edgeRow_congr (fun k => attr_block V c t _ k _ hr0) rfl (fun _ => rfl) (Fin.ext hr1.symm)

/-- An index of the output lies in point `t`'s block iff each coordinate is in the block's range. -/
theorem mem_blk (t : Fin cfg0.N) (i : S1600000x65.Idx) :
    i ∈ ((cfg0.win 3).blk t).view.set ↔ ∀ a : Fin 2, win0_3.index t a * S10000x65.size a ≤ (i a).val
      ∧ (i a).val < win0_3.index t a * S10000x65.size a + S10000x65.size a := by
  show i ∈ ((View.whole main_v1).slice (win0_3.rect t)).set ↔ _
  rw [View.set_slice_whole, Rect.mem_set_unit]
  exact Iff.rfl

/-- Row `r` of the output is written by point `r / 10000`. -/
theorem cover (i : S1600000x65.Idx) :
    ∃ t : Fin cfg0.N, (cfg0.win 3).flush t = true ∧ i ∈ ((cfg0.win 3).blk t).view.set := by
  have hi0 : (i 0).val < 1600000 := (i 0).isLt
  have hi1 : (i 1).val < 65 := (i 1).isLt
  have hN : cfg0.N = 160 := N_0
  obtain ⟨t, ht⟩ : ∃ t : Fin cfg0.N, t.val = (i 0).val / 10000 := ⟨⟨(i 0).val / 10000, by omega⟩, rfl⟩
  obtain ⟨-, -, -, -, -, -, e0, e1⟩ := where0 t
  refine ⟨t, flush0_3 t, ?_⟩
  rw [mem_blk]
  intro a
  match a with
  | ⟨0, _⟩ =>
    show win0_3.index t 0 * 10000 ≤ (i 0).val ∧ (i 0).val < win0_3.index t 0 * 10000 + 10000
    rw [e0, ht]; omega
  | ⟨1, _⟩ =>
    show win0_3.index t 1 * 65 ≤ (i 1).val ∧ (i 1).val < win0_3.index t 1 * 65 + 65
    rw [e1]; omega

/-- After the grid the output array holds every edge's row. -/
theorem final (c : Dev nD) :
    (dat0 V c).arrAt 3 cfg0.N = edgeArr (V c main_arg2) (V c main_arg5) (V c main_v0) :=
  (dat0 V c).arrAt_eq_of_cover 3 _ (fun t _ => flushed_eq V c t) cover

end Cert.KernelIdeal.Edges
end
-- ==== Proof.LibSpread.lean ====
/-
  Spread and column forms of small arrays, read at an entry.

  * A scalar constant spread over any shape reads the constant's value (`splat_apply`).
  * A vector of length `M` made an `M × 1` column reads the vector (`col_apply`); spread further along `N` lanes it reads,
    at `(p, q)`, the vector at `p` (`colSpread_apply`).
  * An `M × 1` column, or a `1 × M` row, read back as a vector (`colVec_apply`, `rowVec_apply`).
  * Row 0 of a `2 × M` table of words, sliced off, read as a vector and made a column, is the column `srcCol` of the
    table's first row (`srcCol_eq`) — the index column of a scatter or gather keyed by an edge list's source row.
-/
import Idealize.ShloMosaic.Lib.ValueIdx
import Idealize.ShloMosaic.Lib.Pipeline.Value
import Idealize.ShloMosaic.PureOps.Ideal.Laws

noncomputable section

namespace Cert.Lib.Spread

open Idealize.ShloMosaic Idealize.ShloMosaic.ValueIdx

variable {α : Type} {M N : Nat}

/-- A scalar constant spread over any shape reads the constant's value. -/
theorem splat_apply {s : Shape} (h : (⟨0, ![]⟩ : Shape).BroadcastsInDim s (![] : Fin 0 → Fin s.rank))
    (w : BitVec 32) (i : s.Idx) :
    broadcastInDim s ![] h (constant (F := Ideal) ⟨0, ![]⟩ .f32 w) i = Ideal.ofBits .f32 w := by
  rw [broadcastInDim_apply _ h _ i (fun a => a.elim0) (fun a => a.elim0), constant_apply]

/-- A vector of length `M` made a column and spread along `N` lanes reads, at `(p, q)`, the vector at `p`. -/
theorem colSpread_apply (v : (⟨1, ![M]⟩ : Shape).Idx → α)
    (h1 : (⟨1, ![M]⟩ : Shape).BroadcastsInDim ⟨2, ![M, 1]⟩ (![0] : Fin 1 → Fin 2))
    (h2 : (⟨2, ![M, 1]⟩ : Shape).BroadcastsInDim ⟨2, ![M, N]⟩ (![0, 1] : Fin 2 → Fin 2)) (p : Fin M) (q : Fin N) :
    broadcastInDim ⟨2, ![M, N]⟩ ![0, 1] h2 (broadcastInDim ⟨2, ![M, 1]⟩ ![0] h1 v) (ix2 p q) = v (ix1 p) := by
  refine (broadcastInDim_apply _ h2 _ (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine broadcastInDim_apply _ h1 v (ix2 p (0 : Fin 1)) (ix1 p) (fun a => ?_)
    match a with
    | ⟨0, _⟩ =>
      show p.val = if M = 1 then 0 else p.val
      split
      · have := p.isLt; omega
      · rfl

/-- A vector of length `M` made a column reads, at `(e, 0)`, the vector at `e`. -/
theorem col_apply (v : (⟨1, ![M]⟩ : Shape).Idx → α)
    (h1 : (⟨1, ![M]⟩ : Shape).BroadcastsInDim ⟨2, ![M, 1]⟩ (![0] : Fin 1 → Fin 2)) (e : Fin M) :
    broadcastInDim ⟨2, ![M, 1]⟩ ![0] h1 v (ix2 e (0 : Fin 1)) = v (ix1 e) := by
  refine broadcastInDim_apply _ h1 v (ix2 e (0 : Fin 1)) (ix1 e) (fun a => ?_)
  match a with
  | ⟨0, _⟩ =>
    show e.val = if M = 1 then 0 else e.val
    split
    · have := e.isLt; omega
    · rfl

/-- An `M × 1` column read back as a vector reads, at `p`, the column at `(p, 0)`. -/
theorem colVec_apply (v : (⟨2, ![M, 1]⟩ : Shape).Idx → α) (h : (⟨2, ![M, 1]⟩ : Shape).ShapeCasts ⟨1, ![M]⟩) (p : Fin M) :
    shapeCast ⟨1, ![M]⟩ v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-- A `1 × M` row read back as a vector reads, at `e`, the row at `(0, e)`. -/
theorem rowVec_apply (v : (⟨2, ![1, M]⟩ : Shape).Idx → α) (h : (⟨2, ![1, M]⟩ : Shape).ShapeCasts ⟨1, ![M]⟩) (e : Fin M) :
    shapeCast ⟨1, ![M]⟩ v h (ix1 e) = v (ix2 (0 : Fin 1) e) :=
  shapeCast_apply v h (ix1 e) (ix2 (0 : Fin 1) e) (by
    rw [Shape.rowMajor_val_one, Shape.rowMajor_val_two]
    show 0 * M + e.val = e.val
    omega)

/-- The column of source words: row 0 of the `2 × M` edge index, one word per edge. -/
def srcCol (EI : (⟨2, ![2, M]⟩ : Shape).Idx → BitVec 32) : (⟨2, ![M, 1]⟩ : Shape).Idx → BitVec 32 :=
  fun i => EI (ix2 (0 : Fin 2) ⟨(i 0).val, (i 0).isLt⟩)

/-- Slicing row 0 off the edge index, reading it as a vector and making that a column gives `srcCol`. -/
theorem srcCol_eq (EI : (⟨2, ![2, M]⟩ : Shape).Idx → BitVec 32)
    (hs : (⟨2, ![2, M]⟩ : Shape).Slices ![0, 0] ⟨2, ![1, M]⟩) (hc : (⟨2, ![1, M]⟩ : Shape).ShapeCasts ⟨1, ![M]⟩)
    (h1 : (⟨1, ![M]⟩ : Shape).BroadcastsInDim ⟨2, ![M, 1]⟩ (![0] : Fin 1 → Fin 2)) :
    broadcastInDim ⟨2, ![M, 1]⟩ ![0] h1 (shapeCast ⟨1, ![M]⟩ (extractStridedSlice ⟨2, ![1, M]⟩ ![0, 0] EI hs) hc)
      = srcCol EI := by
  funext i
  obtain ⟨e, z, rfl⟩ : ∃ (e : Fin M) (z : Fin 1), i = ix2 e z := ⟨i 0, i 1, eq_ix2 i⟩
  obtain rfl : z = 0 := Subsingleton.elim _ _
  rw [col_apply, rowVec_apply]
  exact extractStridedSlice_apply ![0, 0] EI hs (ix2 (0 : Fin 1) e) (ix2 (0 : Fin 2) e) (fun a => by
    match a with
    | ⟨0, _⟩ => rfl
    | ⟨1, _⟩ => show e.val = 0 + e.val; omega)

end Cert.Lib.Spread

end
-- ==== Proof.LibRowScatter.lean ====
/-
  A row gather and a row scatter-add, read at an index.

  For a table `x` of `N` rows and `C` columns and a column `idx` of `M` integer words:

  * the gather of rows takes result row `e` from the operand row `idx[e]` read as a signed integer and clamped into
    `[0, N − 1]`: entry `(e, c)` of the result is `x (gatherRow idx e, c)`;
  * the scatter-add of rows adds update row `e` into the operand row `idx[e]` read as a signed integer and not
    clamped (an update whose row is outside `[0, N − 1]` is dropped): entry `(n, c)` of the result is
    `x (n, c) + ∑ e ∈ landsOn idx N n, upd (e, c)`, the sum over the update rows whose index is `n`.

  Neither the row `gatherRow idx e` nor the set `landsOn idx N n` depends on the number of columns or on the entries.
-/
import Idealize.ShloMosaic.Lib.ValueIdx
import Idealize.ShloMosaic.PureOps.Ideal.Laws
import Idealize.ShloMosaic.Lib.Pipeline.Value

noncomputable section

open scoped BigOperators

namespace Cert.Lib.RowScatter

open Idealize.ShloMosaic Idealize.ShloMosaic.ValueIdx

/-! ## The gather of rows -/

section Gather
variable {α : Type}

/-- The dimension numbers of a gather of whole rows: operand `[N, C]`, start indices `[M, 1]`, result `[M, C]`;
    the result's axis 1 is the offset axis, the operand's axis 0 is collapsed and is the one the start index names,
    the index vector lies along axis 1 of the start indices, and a slice is one row, `1 × C`. Their conditions `wf`
    are decided on literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the word `idx (e, 0)` as a signed integer, negative values taken to
    `0`, then cut to at most `N − 1`. It depends on neither the number of columns nor the entries. -/
def gatherRow (N : Nat) (hN : 0 < N) {M w : Nat} (idx : IVec ⟨2, ![M, 1]⟩ w) (e : Fin M) : Fin N :=
  ⟨min (idx (ix2 e (0 : Fin 1))).toInt.toNat (N - 1), by omega⟩

/-- On the row axis the operand index of result entry `(e, c)` is the clamped start index: no batching coordinate,
    and no offset coordinate on a collapsed axis. -/
theorem gather_operandIdx_zero {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 0).val = min (idx (ix2 e (0 : Fin 1))).toInt.toNat (N - 1) := by
  show (rowGatherDims N M C wf).start (ix2 e c) idx 0 + (rowGatherDims N M C wf).batchCoord (ix2 e c) 0
    + (rowGatherDims N M C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N M C wf).startIndexMap from List.mem_singleton.mpr rfl)]
  have hsi : (rowGatherDims N M C wf).siIdx (ix2 e c) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand index of result entry `(e, c)` is `c`: the start is `0` on an axis the start
    index does not name, and the offset coordinate is the result's column. -/
theorem gather_operandIdx_one {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 1).val = c.val := by
  show (rowGatherDims N M C wf).start (ix2 e c) idx 1 + (rowGatherDims N M C wf).batchCoord (ix2 e c) 1
    + (rowGatherDims N M C wf).offCoord (ix2 e c) 1 = _
  rw [GatherDims.batchCoord_eq_zero _ _ _ List.not_mem_nil]
  have hs : (rowGatherDims N M C wf).start (ix2 e c) idx 1 = 0 := by
    unfold GatherDims.start
    rw [dif_neg (fun h => absurd (List.mem_singleton.mp h) (show ¬ ((1 : Fin 2) = 0) by decide))]
  rw [hs]
  simp only [Nat.add_zero, Nat.zero_add]
  unfold GatherDims.offCoord
  rw [dif_pos ((GatherDims.mem_sKept _ _).mpr
    ⟨fun h => absurd (List.mem_singleton.mp h) (show ¬ ((1 : Fin 2) = 0) by decide), List.not_mem_nil⟩)]
  rfl

/-- THE GATHER OF ROWS READ AT `(e, c)`: the operand at row `gatherRow N hN idx e` — the start index `idx (e, 0)` read
    signed and clamped into `[0, N − 1]` — and column `c`. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGatherDims N M C wf) x idx (ix2 e c) = x (ix2 (gatherRow N hN idx e) c) := by
  unfold Host.gather
  congr 1
  funext a
  match a with
  | ⟨0, _⟩ => exact Fin.ext (gather_operandIdx_zero wf idx e c)
  | ⟨1, _⟩ => exact Fin.ext (gather_operandIdx_one wf idx e c)

end Gather

/-! ## The scatter-add of rows -/

section Scatter

/-- The dimension numbers of a scatter of whole rows: operand `[N, C]`, scatter indices `[M, 1]`, updates `[M, C]`;
    the updates' axis 1 is the window axis, the operand's axis 0 is inserted and is the one the scatter index names,
    and the index vector lies along axis 1 of the scatter indices. Their conditions `wf` are decided on literal
    shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The update rows that land on operand row `n`: the rows `e` whose index word `idx (e, 0)`, read as a signed
    integer and not clamped, is `n`. It depends on neither the number of columns nor the entries. -/
def landsOn {M w : Nat} (idx : IVec ⟨2, ![M, 1]⟩ w) (N : Nat) (n : Fin N) : Finset (Fin M) :=
  Finset.univ.filter (fun e => (idx (ix2 e (0 : Fin 1))).toInt = (n.val : Int))

/-- An axis is among the kept axes exactly when it is not among the removed ones. -/
theorem mem_kept {s : Shape} (axes : List (Fin s.rank)) (a : Fin s.rank) : a ∈ s.kept axes ↔ a ∉ axes := by
  simp [Shape.kept, List.mem_filter, List.mem_finRange]

/-- An update index `j` lands at the operand index `i` exactly when, on every axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have h' := Option.some.inj h
      have h2 : (d.start j idx a + (d.window j a : Int)).toNat = (i a).val := congrArg Fin.val (congrFun h' a)
      have := hb a
      omega
    · cases h
  · intro h
    have hb : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hb]
    congr 1
    funext a
    apply Fin.ext
    show (d.start j idx a + (d.window j a : Int)).toNat = (i a).val
    rw [h a]
    exact Int.toNat_natCast _

/-- On the row axis the start of update entry `(e, c)` is the index word `idx (e, 0)` read as a signed integer. -/
theorem scatter_start_zero {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e c)
      ⟨List.idxOf (0 : Fin 2) (rowScatterDims N M C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not name, the start is `0`. -/
theorem scatter_start_one {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 1 = 0 := by
  unfold ScatterDims.start
  rw [dif_neg (fun h => absurd (List.mem_singleton.mp h) (show ¬ ((1 : Fin 2) = 0) by decide))]

/-- On the row axis, an inserted one, the window coordinate is `0`. -/
theorem scatter_window_zero {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 0 = 0 := by
  unfold ScatterDims.window
  rw [dif_neg (fun h => (mem_kept _ _).mp h (List.mem_singleton.mpr rfl))]

/-- On the column axis the window coordinate of update entry `(e, c)` is `c`. -/
theorem scatter_window_one {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 1 = c.val := by
  unfold ScatterDims.window
  rw [dif_pos ((mem_kept _ _).mpr
    (fun h => absurd (List.mem_singleton.mp h) (show ¬ ((1 : Fin 2) = 0) by decide)))]
  rfl

/-- Update entry `(e, c')` lands at operand entry `(n, c)` exactly when the columns agree and the signed index word
    of row `e` is `n`. -/
theorem resultIdx?_rows {N M C w : Nat} (wf : ScatterDims.WF ⟨2, ![N, C]⟩ ⟨2, ![M, 1]⟩ ⟨2, ![M, C]⟩ [1] [0] [0] 1)
    (idx : IVec ⟨2, ![M, 1]⟩ w) (e : Fin M) (c' c : Fin C) (n : Fin N) :
    (rowScatterDims N M C wf).resultIdx? (ix2 e c') idx = some (ix2 n c)
      ↔ c' = c ∧ (idx (ix2 e (0 : Fin 1))).toInt = (n.val : Int) := by
  rw [resultIdx?_eq_some_iff]
  rw [Fin.forall_fin_two]
  rw [scatter_start_zero, scatter_window_zero, scatter_start_one, scatter_window_one]
  show ((idx (ix2 e (0 : Fin 1))).toInt + ((0 : Nat) : Int) = (n.val : Int)
    ∧ (0 : Int) + (c'.val : Int) = (c.val : Int)) ↔ _
  constructor
  · rintro ⟨h0, h1⟩
    exact ⟨Fin.ext (by omega), by omega⟩
  · rintro ⟨rfl, h⟩
    exact ⟨by omega, by omega⟩

/-- THE SCATTER-ADD OF ROWS READ AT `(n, c)`: the operand's entry plus the sum, over the update rows `e` whose signed
    index word is `n`, of the update's entry `(e, c)`. -/
theorem scatterAdd_rows_apply {N M C w : Nat}
    (wf : ScatterDims.WF ⟨2, ![N, C]⟩ ⟨2, ![M, 1]⟩ ⟨2, ![M, C]⟩ [1] [0] [0] 1)
    (x : FVec Ideal ⟨2, ![N, C]⟩ .f32) (idx : IVec ⟨2, ![M, 1]⟩ w) (upd : FVec Ideal ⟨2, ![M, C]⟩ .f32)
    (n : Fin N) (c : Fin C) :
    Host.scatterAdd (F := Ideal) (rowScatterDims N M C wf) x idx upd (ix2 n c)
      = x (ix2 n c) + ∑ e ∈ landsOn idx N n, upd (ix2 e c) := by
  unfold Host.scatterAdd
  rw [Ideal.hostScatterAdd_def]
  unfold Ideal.hostScatterAdd
  congr 1
  rw [Finset.sum_filter, sum_idx2]
  unfold landsOn
  rw [Finset.sum_filter]
  refine Finset.sum_congr rfl (fun e _ => ?_)
  simp only [resultIdx?_rows]
  by_cases hP : (idx (ix2 e (0 : Fin 1))).toInt = (n.val : Int)
  · simp [hP]
  · simp [hP]

end Scatter

end Cert.Lib.RowScatter

end
-- ==== Proof.LibScatter1.lean ====
/-
  A scatter-add into a column, read at an index.

  For a column `x` of `N` entries, a column `idx` of `M` integer words (shape `[M, 1]`) and `M` updates, the
  scatter-add puts update `e` onto the operand entry `idx[e]` read as a signed integer and not clamped (an update
  whose entry is outside `[0, N − 1]` is dropped): entry `n` of the result is
  `x n + ∑ e ∈ landsOn idx N n, upd e`, the sum over the updates whose index is `n` — the same set of updates a
  scatter-add of whole rows sends to row `n`.
-/
import Idealize.ShloMosaic.Lib.ValueIdx
import Idealize.ShloMosaic.PureOps.Ideal.Laws
import Idealize.ShloMosaic.Lib.Pipeline.Value
import proofs.«165461_j30674656428557_2_alg».proof.Proof.LibRowScatter

noncomputable section

open scoped BigOperators

namespace Cert.Lib.Scatter1

open Idealize.ShloMosaic Idealize.ShloMosaic.ValueIdx Cert.Lib.RowScatter

/-- The indices of a column of `M` entries are the numbers below `M`. -/
def idx1Equiv (M : Nat) : Fin M ≃ (⟨1, ![M]⟩ : Shape).Idx where
  toFun := ix1
  invFun j := j 0
  left_inv _ := rfl
  right_inv j := (eq_ix1 j).symm

/-- A sum over the indices of a column is the sum over its entries' numbers. -/
theorem sum_idx1 {A : Type*} [AddCommMonoid A] {M : Nat} (f : (⟨1, ![M]⟩ : Shape).Idx → A) :
    ∑ i, f i = ∑ e : Fin M, f (ix1 e) :=
  (Equiv.sum_comp (idx1Equiv M) f).symm

/-- The dimension numbers of a scatter of single entries into a column: operand `[N]`, scatter indices `[M, 1]`,
    updates `[M]`; no window axis, the operand's axis 0 inserted and named by the scatter index, the index vector along
    axis 1 of the scatter indices. Their conditions `wf` are decided on literal shapes. -/
abbrev scatter1Dims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The start of update `e` is the index word `idx (e, 0)` read as a signed integer. -/
theorem scatter1_start {N M w : Nat} (wf : ScatterDims.WF ⟨1, ![N]⟩ ⟨2, ![M, 1]⟩ ⟨1, ![M]⟩ [] [0] [0] 1)
    (idx : IVec ⟨2, ![M, 1]⟩ w) (e : Fin M) :
    (scatter1Dims N M wf).start (ix1 e) idx 0 = (idx (ix2 e (0 : Fin 1))).toInt := by
  unfold ScatterDims.start
  rw [dif_pos (show (0 : Fin 1) ∈ (scatter1Dims N M wf).scatterDimsToOperandDims from List.mem_singleton.mpr rfl)]
  have hsi : (scatter1Dims N M wf).siIdx (ix1 e)
      ⟨List.idxOf (0 : Fin 1) (scatter1Dims N M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the one axis, an inserted one, the window coordinate is `0`. -/
theorem scatter1_window {N M : Nat} (wf : ScatterDims.WF ⟨1, ![N]⟩ ⟨2, ![M, 1]⟩ ⟨1, ![M]⟩ [] [0] [0] 1) (e : Fin M) :
    (scatter1Dims N M wf).window (ix1 e) 0 = 0 := by
  unfold ScatterDims.window
  rw [dif_neg (fun h => (mem_kept _ _).mp h (List.mem_singleton.mpr rfl))]

/-- Update `e` lands at operand entry `n` exactly when its signed index word is `n`. -/
theorem resultIdx?_one {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (scatter1Dims N M wf).resultIdx? (ix1 e) idx = some (ix1 n)
      ↔ (idx (ix2 e (0 : Fin 1))).toInt = (n.val : Int) := by
  rw [resultIdx?_eq_some_iff]
  constructor
  · intro h
    have h0 := h 0
    rw [scatter1_start, scatter1_window] at h0
    change (idx (ix2 e (0 : Fin 1))).toInt + ((0 : Nat) : Int) = (n.val : Int) at h0
    omega
  · intro h a
    obtain rfl : a = 0 := Subsingleton.elim _ _
    rw [scatter1_start, scatter1_window]
    show _ + ((0 : Nat) : Int) = (n.val : Int)
    omega

/-- THE SCATTER-ADD INTO A COLUMN READ AT `n`: the operand's entry plus the sum, over the updates `e` whose signed
    index word is `n`, of update `e`. -/
theorem scatterAdd1_apply {N M w : Nat}
    (wf : ScatterDims.WF ⟨1, ![N]⟩ ⟨2, ![M, 1]⟩ ⟨1, ![M]⟩ [] [0] [0] 1)
    (x : FVec Ideal ⟨1, ![N]⟩ .f32) (idx : IVec ⟨2, ![M, 1]⟩ w) (upd : FVec Ideal ⟨1, ![M]⟩ .f32) (n : Fin N) :
    Host.scatterAdd (F := Ideal) (scatter1Dims N M wf) x idx upd (ix1 n)
      = x (ix1 n) + ∑ e ∈ landsOn idx N n, upd (ix1 e) := by
  unfold Host.scatterAdd
  rw [Ideal.hostScatterAdd_def]
  unfold Ideal.hostScatterAdd
  congr 1
  rw [Finset.sum_filter, sum_idx1]
  unfold landsOn
  rw [Finset.sum_filter]
  refine Finset.sum_congr rfl (fun e _ => ?_)
  simp only [resultIdx?_one]

end Cert.Lib.Scatter1

end
-- ==== Proof.Mean.lean ====
/-
  The mean of the edges' time features at a node, and the adapter's result, on the extended reals.

  A node's aggregated time features are, column by column, the sum of the time features of the edges whose source word
  is the node, divided by the larger of the number of such edges and one. Both sums start from the zero word; the
  number of edges is the sum of the word of one over the same edges (`meanRow`). The set of edges depends only on the
  column of source words (`Cert.Lib.RowScatter.landsOn`), not on what is summed, so a scatter-add of rows of 65 entries
  whose last entry is one computes the same two sums as a scatter-add of rows of 64 entries beside a scatter-add of
  ones into a column. `result` is the whole computation, one row per node.
-/
import Idealize.ShloMosaic.Lib.ValueIdx
import Idealize.ShloMosaic.Lib.Pipeline.Value
import Idealize.ShloMosaic.PureOps.Ideal.Laws
import proofs.«165461_j30674656428557_2_alg».proof.Proof.Rows
import proofs.«165461_j30674656428557_2_alg».proof.Proof.LibSpread
import proofs.«165461_j30674656428557_2_alg».proof.Proof.LibRowScatter
import proofs.«165461_j30674656428557_2_alg».proof.Proof.LibScatter1

noncomputable section

open scoped BigOperators

namespace Cert.Adapter

open Idealize.ShloMosaic Idealize.ShloMosaic.ValueIdx

export Cert.Lib.Spread (splat_apply colSpread_apply col_apply colVec_apply rowVec_apply srcCol srcCol_eq)

/-- A node's aggregated time features from the set `L` of its edges and every edge's attribute row. -/
def meanRow (L : Finset (Fin 1600000)) (a : Fin 1600000 → Fin 32 → EReal)
    (Wt : (⟨2, ![64, 32]⟩ : Shape).Idx → EReal) (bt : Fin 64 → EReal) : Fin 64 → EReal :=
  fun c => Ideal.div (Ideal.ofBits .f32 0x00000000#32 + ∑ e ∈ L, posRow (affRow (a e) Wt bt) c)
    (max (Ideal.ofBits .f32 0x00000000#32 + ∑ e ∈ L, Ideal.ofBits .f32 0x3F800000#32) (Ideal.ofBits .f32 0x3F800000#32))

/-- The adapter's result, one row per node: node `n`'s output row from its feature row and the mean of the time features
    of the edges whose source word is `n`. -/
def result (X : (⟨2, ![50000, 256]⟩ : Shape).Idx → EReal) (EI : (⟨2, ![2, 1600000]⟩ : Shape).Idx → BitVec 32)
    (EA : (⟨2, ![1600000, 32]⟩ : Shape).Idx → EReal)
    (Wd : (⟨2, ![64, 256]⟩ : Shape).Idx → EReal) (bd : (⟨1, ![64]⟩ : Shape).Idx → EReal)
    (Wt : (⟨2, ![64, 32]⟩ : Shape).Idx → EReal) (bt : (⟨1, ![64]⟩ : Shape).Idx → EReal)
    (Wf : (⟨2, ![64, 128]⟩ : Shape).Idx → EReal) (bf : (⟨1, ![64]⟩ : Shape).Idx → EReal)
    (Wu : (⟨2, ![256, 64]⟩ : Shape).Idx → EReal) (bu : (⟨1, ![256]⟩ : Shape).Idx → EReal) :
    (⟨2, ![50000, 256]⟩ : Shape).Idx → EReal :=
  fun i => outRow (fun k => X (ix2 ⟨(i 0).val, (i 0).isLt⟩ k))
    (meanRow (Cert.Lib.RowScatter.landsOn (srcCol EI) 50000 ⟨(i 0).val, (i 0).isLt⟩) (fun e k => EA (ix2 e k)) Wt
      (fun q => bt (ix1 q)))
    Wd (fun q => bd (ix1 q)) Wf (fun q => bf (ix1 q)) Wu (fun q => bu (ix1 q)) ⟨(i 1).val, (i 1).isLt⟩

end Cert.Adapter

end
-- ==== Proof.Mid.lean ====
/-
  Between the two grids: what the second grid is entered with.

  After the first grid its output array holds every edge's row (64 time features and a one). The host operations then
  take row 0 of the edge index as the column of source words, scatter-add the edges' rows into a zero `50000 × 65` array
  by source word, and divide columns 0–63 by the larger of column 64 and one. Entry `(n, k)` of that quotient is
  `meanRow` over the edges whose source word is `n` (`entry1_time`). The other arrays the second grid reads are the
  arguments themselves or a bias vector viewed as a row.
-/
import proofs.«165461_j30674656428557_2_alg».proof.Proof.Gen.KernelIdeal.Frame
import proofs.«165461_j30674656428557_2_alg».proof.Proof.Edges
import proofs.«165461_j30674656428557_2_alg».proof.Proof.Mean
import proofs.«165461_j30674656428557_2_alg».proof.Proof.LibRowForms
import Idealize.ShloMosaic.Lib.StableHlo.Run
import Idealize.ShloMosaic.Lib.IdealHost
import Idealize.ShloMosaic.Lib.Pipeline.Value
import Idealize.ShloMosaic.Lib.Tactic

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Mid

open Cert.KernelIdeal Cert.KernelIdeal.Gen Cert.Adapter Cert.Lib.RowScatter Idealize.ShloMosaic.StableHlo

/-- The quotient of the sliced sums: for ANY `50000 × 65` array `S`, columns 0–63 divided by the larger of column 64 and
    one, at entry `(n, k)`. -/
theorem quotient_read (S : S50000x65.Idx → EReal) (n : Fin 50000) (k : Fin 64) :
    Host.divf
      (extractStridedSlice S50000x64 ![0, 0] (S : FVec Ideal S50000x65 .f32) slices_S50000x65_S50000x64_0_0)
      (broadcastInDim S50000x64 ![0, 1] bcast_S50000x1_S50000x64_0_1
        (broadcastInDim S50000x1 ![0] bcast_S50000_S50000x1_0
          (maximumf
            (shapeCast S50000 (extractStridedSlice S50000x1 ![0, 64] (S : FVec Ideal S50000x65 .f32) slices_S50000x65_S50000x1_0_64)
              shapeCasts_S50000x1_S50000)
            (broadcastInDim S50000 ![] bcast_S_S50000 (constant (F := Ideal) S_ .f32 0x3F800000#32)))))
      (ix2 n k)
    = Ideal.div (S (ix2 n ⟨k.val, by have := k.isLt; omega⟩))
        (max (S (ix2 n ⟨64, by omega⟩)) (Ideal.ofBits .f32 0x3F800000#32)) := by
  rw [hostDivf_apply]
  refine congrArg₂ Ideal.div ?_ ?_
  · exact extractStridedSlice_apply ![0, 0] S slices_S50000x65_S50000x64_0_0 (ix2 n k)
      (ix2 n ⟨k.val, by have := k.isLt; omega⟩) (fun a => by
        match a with
        | ⟨0, _⟩ => show n.val = 0 + n.val; omega
        | ⟨1, _⟩ => show k.val = 0 + k.val; omega)
  · refine (colSpread_apply _ bcast_S50000_S50000x1_0 bcast_S50000x1_S50000x64_0_1 n k).trans ?_
    rw [maximumf_apply, splat_apply, colVec_apply]
    refine congrArg (fun z => max z (Ideal.ofBits .f32 0x3F800000#32)) ?_
    exact extractStridedSlice_apply ![0, 64] S slices_S50000x65_S50000x1_0_64 (ix2 n (0 : Fin 1))
      (ix2 n ⟨64, by omega⟩) (fun a => by
        match a with
        | ⟨0, _⟩ => show n.val = 0 + n.val; omega
        | ⟨1, _⟩ => rfl)

/-- The host operations between the grids as one function of the edge index and the first grid's output. -/
def between (EI : S2x1600000.Idx → BitVec 32) (E : FVec Ideal S1600000x65 .bf16) : FVec Ideal S50000x64 .f32 :=
  Host.divf
    (extractStridedSlice S50000x64 ![0, 0]
      (Host.scatterAdd scatter_S50000x65_S1600000x1_S1600000x65_1_0_0_1
        (broadcastInDim S50000x65 ![] bcast_S_S50000x65 (constant (F := Ideal) S_ .f32 0x00000000#32))
        (broadcastInDim S1600000x1 ![0] bcast_S1600000_S1600000x1_0
          (shapeCast S1600000 (extractStridedSlice S1x1600000 ![0, 0] EI slices_S2x1600000_S1x1600000_0_0)
            shapeCasts_S1x1600000_S1600000))
        (extf .f32 E bitsLt_bf16_f32))
      slices_S50000x65_S50000x64_0_0)
    (broadcastInDim S50000x64 ![0, 1] bcast_S50000x1_S50000x64_0_1
      (broadcastInDim S50000x1 ![0] bcast_S50000_S50000x1_0
        (maximumf
          (shapeCast S50000
            (extractStridedSlice S50000x1 ![0, 64]
              (Host.scatterAdd scatter_S50000x65_S1600000x1_S1600000x65_1_0_0_1
                (broadcastInDim S50000x65 ![] bcast_S_S50000x65 (constant (F := Ideal) S_ .f32 0x00000000#32))
                (broadcastInDim S1600000x1 ![0] bcast_S1600000_S1600000x1_0
                  (shapeCast S1600000 (extractStridedSlice S1x1600000 ![0, 0] EI slices_S2x1600000_S1x1600000_0_0)
                    shapeCasts_S1x1600000_S1600000))
                (extf .f32 E bitsLt_bf16_f32))
              slices_S50000x65_S50000x1_0_64)
            shapeCasts_S50000x1_S50000)
          (broadcastInDim S50000 ![] bcast_S_S50000 (constant (F := Ideal) S_ .f32 0x3F800000#32)))))

/-- That function at entry `(n, k)`: the sum over the edges whose source word is `n` of column `k` of `E`, divided by the
    larger of the sum of column 64 over the same edges and one. -/
theorem between_apply (EI : S2x1600000.Idx → BitVec 32) (E : S1600000x65.Idx → EReal) (n : Fin 50000) (k : Fin 64) :
    between EI E (ix2 n k)
    = Ideal.div (Ideal.ofBits .f32 0x00000000#32 + ∑ e ∈ landsOn (srcCol EI) 50000 n, E (ix2 e ⟨k.val, by have := k.isLt; omega⟩))
        (max (Ideal.ofBits .f32 0x00000000#32 + ∑ e ∈ landsOn (srcCol EI) 50000 n, E (ix2 e ⟨64, by omega⟩))
          (Ideal.ofBits .f32 0x3F800000#32)) := by
  unfold between
  rw [srcCol_eq]
  have hS : ∀ q : Fin 65,
      (Host.scatterAdd scatter_S50000x65_S1600000x1_S1600000x65_1_0_0_1
          (broadcastInDim S50000x65 ![] bcast_S_S50000x65 (constant (F := Ideal) S_ .f32 0x00000000#32))
          (srcCol EI) (extf .f32 (E : FVec Ideal S1600000x65 .bf16) bitsLt_bf16_f32) : S50000x65.Idx → EReal) (ix2 n q)
        = Ideal.ofBits .f32 0x00000000#32 + ∑ e ∈ landsOn (srcCol EI) 50000 n, E (ix2 e q) := by
    intro q
    refine (scatterAdd_rows_apply scatter_S50000x65_S1600000x1_S1600000x65_1_0_0_1_wf _ _ _ n q).trans ?_
    rw [splat_apply]
    rfl
  refine (quotient_read _ n k).trans ?_
  rw [hS, hS]

/-- An edge's row read in a time-feature column. -/
theorem edge_time (A : S1600000x32.Idx → EReal) (Wt : S64x32.Idx → EReal) (bt : S64.Idx → EReal)
    (e : Fin 1600000) (k : Fin 64) :
    Edges.edgeArr A Wt (shapeCast S1x64 bt shapeCasts_S64_S1x64) (ix2 e ⟨k.val, by have := k.isLt; omega⟩)
      = posRow (affRow (fun j => A (ix2 e j)) Wt (fun q => bt (ix1 q))) k := by
  have hb : (fun q : Fin 64 => shapeCast S1x64 bt shapeCasts_S64_S1x64 (ix2 (0 : Fin 1) q)) = fun q => bt (ix1 q) :=
    funext fun q => Cert.Lib.RowForms.vecRow_apply bt shapeCasts_S64_S1x64 q
  have hk65 : k.val < 65 := by have := k.isLt; omega
  show edgeRow (fun j => A (ix2 e j)) Wt (fun q => shapeCast S1x64 bt shapeCasts_S64_S1x64 (ix2 (0 : Fin 1) q))
    ⟨k.val, hk65⟩ = _
  rw [hb]
  unfold edgeRow
  exact (dif_pos (show (⟨k.val, hk65⟩ : Fin 65).val < 64 from k.isLt)).trans rfl

/-- An edge's row read in its last column: the number one. -/
theorem edge_one (A : S1600000x32.Idx → EReal) (Wt : S64x32.Idx → EReal) (B : S1x64.Idx → EReal) (e : Fin 1600000) :
    Edges.edgeArr A Wt B (ix2 e ⟨64, by omega⟩) = Ideal.ofBits .f32 0x3F800000#32 := by
  have h65 : 64 < 65 := by omega
  show edgeRow _ _ _ (⟨64, h65⟩ : Fin 65) = _
  unfold edgeRow
  exact dif_neg (show ¬ ((⟨64, h65⟩ : Fin 65).val < 64) from Nat.lt_irrefl 64)

variable (m : (ℓ : Loc nD τ sig) → Buf (Elt Ideal) ℓ) (ρ : Dev nD → PrngReg)

/-! ## What the first grid is entered with, and what it leaves -/

theorem entry0_attr (c : Dev nD) : V1 m ρ c main_arg2 = m ((c : Thread nD τ).loc main_arg2) := by
  show StableHlo.after hostOps0 (W0 m ρ c) (Proc.devRef .tc main_arg2) = _
  after_results <;> rfl

theorem entry0_weight (c : Dev nD) : V1 m ρ c main_arg5 = m ((c : Thread nD τ).loc main_arg5) := by
  show StableHlo.after hostOps0 (W0 m ρ c) (Proc.devRef .tc main_arg5) = _
  after_results <;> rfl

theorem entry0_bias (c : Dev nD) :
    V1 m ρ c main_v0 = shapeCast S1x64 (m ((c : Thread nD τ).loc main_arg6)) shapeCasts_S64_S1x64 := by
  show StableHlo.after hostOps0 (W0 m ρ c) (Proc.devRef .tc main_v0) = _
  after_results <;> rfl

/-- After the first grid its output array holds every edge's row. -/
theorem edges_out (c : Dev nD) :
    (W2 m ρ c (Proc.devRef .tc main_v1) : S1600000x65.Idx → EReal)
      = Edges.edgeArr (m ((c : Thread nD τ).loc main_arg2)) (m ((c : Thread nD τ).loc main_arg5))
          (shapeCast S1x64 (m ((c : Thread nD τ).loc main_arg6)) shapeCasts_S64_S1x64) := by
  rw [show W2 m ρ c (Proc.devRef .tc main_v1) = (dat0 (V1 m ρ) c).arrAt 3 cfg0.N from W2_arr m ρ c 3,
    Edges.final, entry0_attr, entry0_weight, entry0_bias]

/-- A buffer the first grid does not touch and the first host operation does not write keeps its launch contents. -/
theorem kept_arg0 (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results <;> rfl)
theorem kept_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results <;> rfl)
theorem kept_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results <;> rfl)
theorem kept_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results <;> rfl)
theorem kept_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results <;> rfl)
theorem kept_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results <;> rfl)
theorem kept_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results <;> rfl)
theorem kept_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results <;> rfl)

/-! ## What the second grid is entered with -/

theorem entry1_feat (c : Dev nD) : V3 m ρ c main_arg0 = m ((c : Thread nD τ).loc main_arg0) := by
  show StableHlo.after hostOps1 (W2 m ρ c) (Proc.devRef .tc main_arg0) = _
  after_results
  exact kept_arg0 m ρ c

theorem entry1_wd (c : Dev nD) : V3 m ρ c main_arg3 = m ((c : Thread nD τ).loc main_arg3) := by
  show StableHlo.after hostOps1 (W2 m ρ c) (Proc.devRef .tc main_arg3) = _
  after_results
  exact kept_arg3 m ρ c

theorem entry1_wf (c : Dev nD) : V3 m ρ c main_arg7 = m ((c : Thread nD τ).loc main_arg7) := by
  show StableHlo.after hostOps1 (W2 m ρ c) (Proc.devRef .tc main_arg7) = _
  after_results
  exact kept_arg7 m ρ c

theorem entry1_wu (c : Dev nD) : V3 m ρ c main_arg9 = m ((c : Thread nD τ).loc main_arg9) := by
  show StableHlo.after hostOps1 (W2 m ρ c) (Proc.devRef .tc main_arg9) = _
  after_results
  exact kept_arg9 m ρ c

theorem entry1_bd (c : Dev nD) :
    V3 m ρ c main_v16 = shapeCast S1x64 (m ((c : Thread nD τ).loc main_arg4)) shapeCasts_S64_S1x64 := by
  show StableHlo.after hostOps1 (W2 m ρ c) (Proc.devRef .tc main_v16) = _
  after_results
  show shapeCast S1x64 (W2 m ρ c (Proc.devRef .tc main_arg4)) shapeCasts_S64_S1x64 = _
  rw [kept_arg4]

theorem entry1_bf (c : Dev nD) :
    V3 m ρ c main_v17 = shapeCast S1x64 (m ((c : Thread nD τ).loc main_arg8)) shapeCasts_S64_S1x64 := by
  show StableHlo.after hostOps1 (W2 m ρ c) (Proc.devRef .tc main_v17) = _
  after_results
  show shapeCast S1x64 (W2 m ρ c (Proc.devRef .tc main_arg8)) shapeCasts_S64_S1x64 = _
  rw [kept_arg8]

theorem entry1_bu (c : Dev nD) :
    V3 m ρ c main_v18 = shapeCast S1x256 (m ((c : Thread nD τ).loc main_arg10)) shapeCasts_S256_S1x256 := by
  show StableHlo.after hostOps1 (W2 m ρ c) (Proc.devRef .tc main_v18) = _
  after_results
  show shapeCast S1x256 (W2 m ρ c (Proc.devRef .tc main_arg10)) shapeCasts_S256_S1x256 = _
  rw [kept_arg10]

theorem entry1_time_term (c : Dev nD) :
    V3 m ρ c main_v15 = between (W2 m ρ c (Proc.devRef .tc main_arg1)) (W2 m ρ c (Proc.devRef .tc main_v1)) := by
  show StableHlo.after hostOps1 (W2 m ρ c) (Proc.devRef .tc main_v15) = _
  after_results <;> rfl

/-- The aggregated time features the second grid reads, at `(n, k)`. -/
theorem entry1_time (c : Dev nD) (n : Fin 50000) (k : Fin 64) :
    (V3 m ρ c main_v15 : S50000x64.Idx → EReal) (ix2 n k)
      = meanRow (landsOn (srcCol (m ((c : Thread nD τ).loc main_arg1))) 50000 n)
          (fun e j => (m ((c : Thread nD τ).loc main_arg2) : S1600000x32.Idx → EReal) (ix2 e j))
          (m ((c : Thread nD τ).loc main_arg5)) (fun q => (m ((c : Thread nD τ).loc main_arg6) : S64.Idx → EReal) (ix1 q)) k := by
  rw [entry1_time_term, between_apply, edges_out, kept_arg1]
  unfold meanRow
  refine congrArg₂ Ideal.div
    (congrArg (fun z => Ideal.ofBits .f32 0x00000000#32 + z) (Finset.sum_congr rfl fun e _ => edge_time _ _ _ e k))
    (congrArg (fun z => max (Ideal.ofBits .f32 0x00000000#32 + z) (Ideal.ofBits .f32 0x3F800000#32))
      (Finset.sum_congr rfl fun e _ => edge_one _ _ _ e))

end Cert.KernelIdeal.Mid
end
-- ==== Proof.Out.lean ====
/-
  The idealized kernel's result as one function of the arguments.

  After the second grid its output array holds `outRow` of each node's feature row and its row of aggregated time
  features (Nodes), and those aggregated features are `meanRow` over the node's edges (Mid). Put together, the result
  array is `Cert.Adapter.result` of the eleven argument arrays as launched.
-/
import proofs.«165461_j30674656428557_2_alg».proof.Proof.Gen.KernelIdeal.Frame
import proofs.«165461_j30674656428557_2_alg».proof.Proof.Nodes
import proofs.«165461_j30674656428557_2_alg».proof.Proof.Mid
import proofs.«165461_j30674656428557_2_alg».proof.Proof.LibRowForms
import Idealize.ShloMosaic.Lib.Pipeline.Value

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.Out

open Cert.KernelIdeal Cert.KernelIdeal.Gen Cert.Adapter

variable (m : (ℓ : Loc nD τ sig) → Buf (Elt Ideal) ℓ) (ρ : Dev nD → PrngReg)

/-- The second grid's output array after its last write-back is the adapter's result of the launch contents. -/
theorem out_eq (c : Dev nD) :
    ((dat1 (V3 m ρ) c).arrAt 8 cfg1.N : S50000x256.Idx → EReal)
      = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) := by
  rw [Nodes.final, Mid.entry1_feat, Mid.entry1_wd, Mid.entry1_wf, Mid.entry1_wu, Mid.entry1_bd, Mid.entry1_bf,
    Mid.entry1_bu]
  funext i
  unfold Nodes.nodeArr result
  exact Nodes.outRow_congr (fun _ => rfl) (fun k => Mid.entry1_time m ρ c _ k) rfl
    (fun q => Cert.Lib.RowForms.vecRow_apply _ shapeCasts_S64_S1x64 q) rfl
    (fun q => Cert.Lib.RowForms.vecRow_apply _ shapeCasts_S64_S1x64 q) rfl
    (fun q => Cert.Lib.RowForms.vecRow_apply _ shapeCasts_S256_S1x256 q) rfl

end Cert.KernelIdeal.Out
end
-- ==== Proof.RefRows.lean ====
/-
  The reference program read at an entry.

  The reference computes, with whole-array host operations, the same rows as the kernel: every edge's time features
  (a product with the transposed time weight, the bias broadcast, the positive part), their sums per source node
  beside the count of edges per source node (two scatter-adds over one column of source words), the quotient by the
  larger of the count and one, and then each node's output row from its features and that quotient. Read at entry
  `(n, j)` its result is `outRow` of node `n`'s feature row and of `meanRow` over the edges whose source word is `n`.
-/
import proofs.«165461_j30674656428557_2_alg».proof.Proof.Gen.ReferenceIdeal.Read
import proofs.«165461_j30674656428557_2_alg».proof.Proof.Rows
import proofs.«165461_j30674656428557_2_alg».proof.Proof.Mean
import proofs.«165461_j30674656428557_2_alg».proof.Proof.LibConcatRead
import Idealize.ShloMosaic.Lib.IdealHost
import Idealize.ShloMosaic.Lib.Pipeline.Value

set_option maxRecDepth 16384

noncomputable section

open scoped BigOperators
open Idealize.ShloMosaic Idealize.ShloMosaic.ValueIdx

namespace Cert.ReferenceIdeal.Rows

open Cert.ReferenceIdeal Cert.ReferenceIdeal.Read Cert.Adapter Cert.Lib.RowScatter Cert.Lib.Scatter1

/-- The aggregated time features at `(n, k)`: `meanRow` over the edges whose source word is `n`. -/
theorem mean_apply (x1 : (⟨S2x1600000, .i32⟩ : BufTy).Contents (Elt Ideal)) (x2 : (⟨S1600000x32, .f32⟩ : BufTy).Contents (Elt Ideal))
    (x5 : (⟨S64x32, .f32⟩ : BufTy).Contents (Elt Ideal)) (x6 : (⟨S64, .f32⟩ : BufTy).Contents (Elt Ideal))
    (n : Fin 50000) (k : Fin 64) :
    val_main_v25 (F := Ideal) x1 x2 x5 x6 (ix2 n k)
      = meanRow (landsOn (srcCol x1) 50000 n) (fun e j => x2 (ix2 e j)) x5 (fun q => x6 (ix1 q)) k := by
  unfold val_main_v25 meanRow
  rw [hostDivf_apply]
  refine congrArg₂ Ideal.div ?_ ?_
  · unfold val_main_v16 val_main_v15 val_main_v13 val_main_v12 val_main_v14 val_main_cst
    rw [srcCol_eq]
    refine (scatterAdd_rows_apply Facts₀.scatter_S50000x64_S1600000x1_S1600000x64_1_0_0_1_wf _ _ _ n k).trans ?_
    rw [splat_apply]
    refine congrArg (fun z => Ideal.ofBits .f32 0x00000000#32 + z) (Finset.sum_congr rfl fun e _ => ?_)
    unfold val_main_v11 val_main_call1_v0 val_main_call1_cst val_main_v10 val_main_v7 val_main_v9 val_main_v8 val_main_v6
    rw [host_pos_apply, host_affine_apply dot_S1600000x32_S32x64_S1600000x64_1_0_0_1_n_n rfl]
    rfl
  · unfold val_main_v24 val_main_v23 val_main_v22 val_main_v21 val_main_cst_2 val_main_v20 val_main_v19 val_main_v13
      val_main_v12 val_main_v18 val_main_cst_1 val_main_v17 val_main_cst_0
    rw [colSpread_apply, maximumf_apply, splat_apply, srcCol_eq]
    refine congrArg (fun z => max z (Ideal.ofBits .f32 0x3F800000#32)) ?_
    refine (scatterAdd1_apply Facts₀.scatter_S50000_S1600000x1_S1600000_n_0_0_1_wf _ _ _ n).trans ?_
    rw [splat_apply]
    exact congrArg (fun z => Ideal.ofBits .f32 0x00000000#32 + z) (Finset.sum_congr rfl fun e _ => splat_apply _ _ _)

/-- The result at `(n, j)`: node `n`'s output row. -/
theorem out_apply (x0 : (⟨S50000x256, .f32⟩ : BufTy).Contents (Elt Ideal)) (x1 : (⟨S2x1600000, .i32⟩ : BufTy).Contents (Elt Ideal))
    (x2 : (⟨S1600000x32, .f32⟩ : BufTy).Contents (Elt Ideal)) (x3 : (⟨S64x256, .f32⟩ : BufTy).Contents (Elt Ideal))
    (x4 : (⟨S64, .f32⟩ : BufTy).Contents (Elt Ideal)) (x5 : (⟨S64x32, .f32⟩ : BufTy).Contents (Elt Ideal))
    (x6 : (⟨S64, .f32⟩ : BufTy).Contents (Elt Ideal)) (x7 : (⟨S64x128, .f32⟩ : BufTy).Contents (Elt Ideal))
    (x8 : (⟨S64, .f32⟩ : BufTy).Contents (Elt Ideal)) (x9 : (⟨S256x64, .f32⟩ : BufTy).Contents (Elt Ideal))
    (x10 : (⟨S256, .f32⟩ : BufTy).Contents (Elt Ideal)) (n : Fin 50000) (j : Fin 256) :
    val_main_v38 (F := Ideal) x0 x1 x2 x3 x4 x5 x6 x7 x8 x9 x10 (ix2 n j)
      = outRow (fun k => x0 (ix2 n k))
          (meanRow (landsOn (srcCol x1) 50000 n) (fun e k => x2 (ix2 e k)) x5 (fun q => x6 (ix1 q)))
          x3 (fun q => x4 (ix1 q)) x7 (fun q => x8 (ix1 q)) x9 (fun q => x10 (ix1 q)) j := by
  unfold val_main_v38 val_main_v37 val_main_v34 val_main_v36 val_main_v35 val_main_v33 outRow
  rw [addf_apply, host_affine_apply dot_S50000x64_S64x256_S50000x256_1_0_0_1_n_n rfl]
  refine congrArg (fun r => x0 (ix2 n j) + affRow r x9 (fun q => x10 (ix1 q)) j) (funext fun k => ?_)
  unfold val_main_v32 val_main_call2_v0 val_main_call2_cst val_main_v31 val_main_v28 val_main_v30 val_main_v29 val_main_v27
  rw [host_pos_apply, host_affine_apply dot_S50000x128_S128x64_S50000x64_1_0_0_1_n_n rfl]
  refine congrArg (fun r => max (affRow r x7 (fun q => x8 (ix1 q)) k) 0) (funext fun k' => ?_)
  unfold val_main_v26 catRow
  by_cases h : k'.val < 64
  · rw [dif_pos h, Cert.Lib.ConcatRead.cols_left _ _ _ n k' ⟨k'.val, h⟩ rfl]
    unfold val_main_v5 val_main_call0_v0 val_main_call0_cst val_main_v4 val_main_v1 val_main_v3 val_main_v2 val_main_v0
    rw [host_pos_apply, host_affine_apply dot_S50000x256_S256x64_S50000x64_1_0_0_1_n_n rfl]
    rfl
  · have hk : k'.val < 128 := k'.isLt
    rw [dif_neg h, Cert.Lib.ConcatRead.cols_right _ _ _ n k' (⟨k'.val - 64, by omega⟩ : Fin 64)
      (by show k'.val - 64 + 64 = k'.val; omega)]
    exact mean_apply x1 x2 x5 x6 n _

end Cert.ReferenceIdeal.Rows
end
-- ==== Proof.lean ====
/-
  The certificate: a graph adapter's two-grid kernel against its plain reference, on the extended reals.

  Both programs compute, for every node `n`, the row `x_n + up(relu(fuse(relu(down(x_n)) ‖ t_n)))`, where `t_n` is the
  mean over the edges whose source word is `n` of `relu(W_time · a_e + b_time)` — the sum divided by the larger of the
  number of such edges and one. The kernel computes every edge's 64 time features together with a trailing one in a
  first grid, scatter-adds these rows of 65 entries by source word on the host (so sums and count come out of one pass),
  divides, and computes the node rows in a second grid; the reference uses whole-array host operations, with one
  scatter-add for the sums and one for the count. The same set of edges lands on a node in every one of these
  scatter-adds, each dense layer is the same finite sum on both sides, and a change of float format is the identity on
  extended reals; no law beyond reading these sums at an index is needed, so the precondition is never opened.

  The three frames are the generated ones (the reference's from its generated run); the ledger of the ideal pass is
  empty; the value claim joins the kernel's result array (`Cert.KernelIdeal.Out.out_eq` over the run with the result
  named) with the reference's run read at an entry (`Cert.ReferenceIdeal.Rows.out_apply`).
-/
import proofs.«165461_j30674656428557_2_alg».proof.Defs
import proofs.«165461_j30674656428557_2_alg».proof.Proof.Gen.Kernel
import proofs.«165461_j30674656428557_2_alg».proof.Proof.Gen.Kernel.Frame
import proofs.«165461_j30674656428557_2_alg».proof.Proof.Gen.KernelIdeal
import proofs.«165461_j30674656428557_2_alg».proof.Proof.Gen.KernelIdeal.Frame
import proofs.«165461_j30674656428557_2_alg».proof.Proof.Gen.ReferenceIdeal
import proofs.«165461_j30674656428557_2_alg».proof.Proof.Gen.Pre_finite_inputs
import proofs.«165461_j30674656428557_2_alg».proof.Proof.Gen.ReferenceIdeal.Run
import proofs.«165461_j30674656428557_2_alg».proof.Proof.Gen.ReferenceIdeal.Read
import proofs.«165461_j30674656428557_2_alg».proof.Proof.RunNamed
import proofs.«165461_j30674656428557_2_alg».proof.Proof.Out
import proofs.«165461_j30674656428557_2_alg».proof.Proof.RefRows
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.Adapter

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the adapter's result of those arguments. -/
theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Out.out_eq m ρ c), (h c).2⟩)
      (Cert.KernelIdeal.Whole.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.Read.val_main_v38_eq, a0, a1, a2, a3, a4, a5, a6, a7, a8, a9, a10]
    funext i
    obtain ⟨n, j, rfl⟩ : ∃ (n : Fin 50000) (j : Fin 256), i = ix2 n j := ⟨i 0, i 1, eq_ix2 i⟩
    exact Cert.ReferenceIdeal.Rows.out_apply _ _ _ _ _ _ _ _ _ _ _ n j

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
